-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S2x8192 : Shape := ⟨2, ![2, 8192]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_v13 : IVec S_ 1) (main_v16 : IVec S2x8192 1) : IVec S_ 1 :=
  let main_c_5 : IVec S_ 1 := constantI S_ 1 1#1
  let main_v17 : IVec S_ 1 := (fun x v => Host.reduce IntOp.andi x v reducesTo_S2x8192_S_d0_1 h_S_) main_v16 main_c_5
  let main_v18 : IVec S_ 1 := andi main_v13 main_v17
  main_v18

def fn {F : FTy → Type} [FloatOps F] (main_arg0 : FVec F S2x8192x3 .f32) (main_arg1 : FVec F S2x8192x3 .f32) (main_arg2 : FVec F S2x8192 .f32) (main_arg3 : FVec F S2x8192 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  let main_v9 : FVec F S2x8192 .f32 := Host.absf main_arg2
  let main_cst_2 : FVec F S_ .f32 := constant S_ .f32 0x7F800000#32
  let main_v10 : FVec F S2x8192 .f32 := broadcastInDim S2x8192 ![] bcast_S_S2x8192 main_cst_2
  let main_v11 : IVec S2x8192 1 := cmpf .olt main_v9 main_v10
  let main_c_3 : IVec S_ 1 := constantI S_ 1 1#1
  let main_v12 : IVec S_ 1 := (fun x v => Host.reduce IntOp.andi x v reducesTo_S2x8192_S_d0_1 h_S_) main_v11 main_c_3
  let main_v13 : IVec S_ 1 := andi main_v8 main_v12
  let main_v14 : FVec F S2x8192 .f32 := Host.absf main_arg3
  let main_cst_4 : FVec F S_ .f32 := constant S_ .f32 0x7F800000#32
  let main_v15 : FVec F S2x8192 .f32 := broadcastInDim S2x8192 ![] bcast_S_S2x8192 main_cst_4
  let main_v16 : IVec S2x8192 1 := cmpf .olt main_v14 main_v15
  fn_part1 (F := F) main_v13 main_v16
-- ==== Kernel.lean ====
abbrev S2x8192x3 : Shape := ⟨3, ![2, 8192, 3]⟩
abbrev S2x8192 : Shape := ⟨2, ![2, 8192]⟩
abbrev S2x3x8192 : Shape := ⟨3, ![2, 3, 8192]⟩
abbrev S2x1x8192 : Shape := ⟨3, ![2, 1, 8192]⟩
abbrev S1x3x2048 : Shape := ⟨3, ![1, 3, 2048]⟩
abbrev S1x3x8192 : Shape := ⟨3, ![1, 3, 8192]⟩
abbrev S1x1x2048 : Shape := ⟨3, ![1, 1, 2048]⟩
abbrev S1x1x8192 : Shape := ⟨3, ![1, 1, 8192]⟩
abbrev S3x2048 : Shape := ⟨2, ![3, 2048]⟩
abbrev S3x8192 : Shape := ⟨2, ![3, 8192]⟩
abbrev S2048 : Shape := ⟨1, ![2048]⟩
abbrev S1x2048 : Shape := ⟨2, ![1, 2048]⟩
abbrev S8192 : Shape := ⟨1, ![8192]⟩
abbrev S3x1024 : Shape := ⟨2, ![3, 1024]⟩
abbrev S1024 : Shape := ⟨1, ![1024]⟩
abbrev S2048x1024 : Shape := ⟨2, ![2048, 1024]⟩
abbrev S2048x1 : Shape := ⟨2, ![2048, 1]⟩
abbrev S1x1024 : Shape := ⟨2, ![1, 1024]⟩
abbrev S1x1x1024 : Shape := ⟨3, ![1, 1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S2x3x8192, .f32⟩
  | .hbm, ⟨5, _⟩ => ⟨S2x3x8192, .f32⟩
  | .hbm, ⟨6, _⟩ => ⟨S2x1x8192, .f32⟩
  | .hbm, ⟨7, _⟩ => ⟨S2x1x8192, .f32⟩
  | .hbm, ⟨8, _⟩ => ⟨S2x1x8192, .f32⟩
  | .hbm, ⟨9, _⟩ => ⟨S2x1x8192, .f32⟩
  | .hbm, ⟨10, _⟩ => ⟨S2x1x8192, .f32⟩
  | .hbm, ⟨11, _⟩ => ⟨S2x8192, .f32⟩
  | .hbm, ⟨12, _⟩ => ⟨S2x8192, .f32⟩
  | .hbm, ⟨13, _⟩ => ⟨S2x8192, .f32⟩
  | .local _ .vmem, ⟨0, _⟩ => ⟨S1x3x2048, .f32⟩
  | .local _ .vmem, ⟨1, _⟩ => ⟨S1x3x2048, .f32⟩
  | .local _ .vmem, ⟨2, _⟩ => ⟨S1x3x8192, .f32⟩
  | .local _ .vmem, ⟨3, _⟩ => ⟨S1x3x8192, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x8192, .f32⟩
  | .local _ .vmem, ⟨13, _⟩ => ⟨S1x1x8192, .f32⟩
  | .local _ .vmem, ⟨14, _⟩ => ⟨S1x1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v211 : BitVec 1 := Scalar.cmpi .eq arg1 c3_i32
  let v212 : BitVec 32 := Scalar.extui v211
  let c0_i32_103 : BitVec 32 := 0#32
  let v213 : BitVec 1 := Scalar.cmpi .ne v212 c0_i32_103
  v213

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S2x8192x3_S2x3x8192_0_2_1 : S2x8192x3.Transposes [0, 2, 1] S2x3x8192
  bcast_S2x8192_S2x1x8192_0_2 : S2x8192.BroadcastsInDim S2x1x8192 (![0, 2] : Fin 2 → Fin S2x1x8192.rank)
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S3x2048 : S1x2048.Broadcasts S3x2048
  reduces_S3x2048_S2048 : S3x2048.Reduces [0] S2048
  reduces_S3x8192_S8192 : S3x8192.Reduces [0] S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x1x8192 : S1x1x8192.ShapeCasts S1x1x8192
  slices_S3x8192_o0_0_S3x1024 : S3x8192.Slices ![0, 0] S3x1024
  slices_S8192_o0_S1024 : S8192.Slices ![0] S1024
  shapeCasts_S2048_S2048x1 : S2048.ShapeCasts S2048x1
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1024_S1024 : S2048x1024.Reduces [0] S1024
  inb_S1x1x8192_S1x1x1024_0_0_0 : ∀ a, (![0, 0, 0] : Fin 3 → Nat) a + S1x1x1024.size a ≤ S1x1x8192.size a
  h_S1x1x1024 : 0 < S1x1x1024.numel
  shapeCasts_S1x1x1024_S1024 : S1x1x1024.ShapeCasts S1024
  shapeCasts_S1024_S1x1x1024 : S1024.ShapeCasts S1x1x1024
  slices_S3x8192_o0_1024_S3x1024 : S3x8192.Slices ![0, 1024] S3x1024
  slices_S8192_o1024_S1024 : S8192.Slices ![1024] S1024
  inb_S1x1x8192_S1x1x1024_0_0_1024 : ∀ a, (![0, 0, 1024] : Fin 3 → Nat) a + S1x1x1024.size a ≤ S1x1x8192.size a
  slices_S3x8192_o0_2048_S3x1024 : S3x8192.Slices ![0, 2048] S3x1024
  slices_S8192_o2048_S1024 : S8192.Slices ![2048] S1024
  inb_S1x1x8192_S1x1x1024_0_0_2048 : ∀ a, (![0, 0, 2048] : Fin 3 → Nat) a + S1x1x1024.size a ≤ S1x1x8192.size a
  slices_S3x8192_o0_3072_S3x1024 : S3x8192.Slices ![0, 3072] S3x1024
  slices_S8192_o3072_S1024 : S8192.Slices ![3072] S1024
  inb_S1x1x8192_S1x1x1024_0_0_3072 : ∀ a, (![0, 0, 3072] : Fin 3 → Nat) a + S1x1x1024.size a ≤ S1x1x8192.size a
  slices_S3x8192_o0_4096_S3x1024 : S3x8192.Slices ![0, 4096] S3x1024
  slices_S8192_o4096_S1024 : S8192.Slices ![4096] S1024
  inb_S1x1x8192_S1x1x1024_0_0_4096 : ∀ a, (![0, 0, 4096] : Fin 3 → Nat) a + S1x1x1024.size a ≤ S1x1x8192.size a
  slices_S3x8192_o0_5120_S3x1024 : S3x8192.Slices ![0, 5120] S3x1024
  slices_S8192_o5120_S1024 : S8192.Slices ![5120] S1024
  inb_S1x1x8192_S1x1x1024_0_0_5120 : ∀ a, (![0, 0, 5120] : Fin 3 → Nat) a + S1x1x1024.size a ≤ S1x1x8192.size a
  slices_S3x8192_o0_6144_S3x1024 : S3x8192.Slices ![0, 6144] S3x1024
  slices_S8192_o6144_S1024 : S8192.Slices ![6144] S1024
  inb_S1x1x8192_S1x1x1024_0_0_6144 : ∀ a, (![0, 0, 6144] : Fin 3 → Nat) a + S1x1x1024.size a ≤ S1x1x8192.size a
  slices_S3x8192_o0_7168_S3x1024 : S3x8192.Slices ![0, 7168] S3x1024
  slices_S8192_o7168_S1024 : S8192.Slices ![7168] S1024
  inb_S1x1x8192_S1x1x1024_0_0_7168 : ∀ a, (![0, 0, 7168] : Fin 3 → Nat) a + S1x1x1024.size a ≤ S1x1x8192.size a
  shapeCasts_S2048_S1x1x2048 : S2048.ShapeCasts S1x1x2048
  shapeCasts_S1x1x8192_S8192 : S1x1x8192.ShapeCasts S8192
  shapeCasts_S8192_S1x1x8192 : S8192.ShapeCasts S1x1x8192
  shapeCasts_S2x1x8192_S2x8192 : S2x1x8192.ShapeCasts S2x8192
  dot_S3x2048_S3x1024_S2048x1024_0_0_1_1_n_n_wf : DotDims.WF S3x2048 S3x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S2x3x8192.size a
  hwx0_0 : ∀ i : grid0.Coords, EltTy.bits .f32 = 32 ∨ (Rect.block (s := S2x3x8192) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S2x3x8192.size a
  hwx0_1 : ∀ i : grid0.Coords, EltTy.bits .f32 = 32 ∨ (Rect.block (s := S2x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S2x1x8192.size a
  hwx0_2 : ∀ i : grid0.Coords, EltTy.bits .f32 = 32 ∨ (Rect.block (s := S2x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x8192.size a
  hwx0_3 : ∀ i : grid0.Coords, EltTy.bits .f32 = 32 ∨ (Rect.block (s := S2x1x8192) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S2x1x8192.size a
  hwx0_4 : ∀ i : grid0.Coords, EltTy.bits .f32 = 32 ∨ (Rect.block (s := S2x1x8192) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S2x1x8192.size a
  hwx0_5 : ∀ i : grid0.Coords, EltTy.bits .f32 = 32 ∨ (Rect.block (s := S2x1x8192) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8192.size a ≤ S2x1x8192.size a
  hwx0_6 : ∀ i : grid0.Coords, EltTy.bits .f32 = 32 ∨ (Rect.block (s := S2x1x8192) S1x1x8192.size (cc0_transform_6 i) (hinb0_6 i)).WholeWords (EltTy.packing .f32)

variable [Facts₀]

def dot_S3x2048_S3x1024_S2048x1024_0_0_1_1_n_n : DotDims S3x2048 S3x1024 S2048x1024 where
  lhsContracting := [0]
  rhsContracting := [0]
  lhsNonContracting := [1]
  rhsNonContracting := [1]
  lhsBatch := []
  rhsBatch := []
  wf := dot_S3x2048_S3x1024_S2048x1024_0_0_1_1_n_n_wf

abbrev win0_0 : Pipeline.Window sig grid0 :=
  Pipeline.Window.ofSpec (Memref.whole main_v1) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1x8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S2x8192 : Shape := ⟨2, ![2, 8192]⟩
abbrev S2x8192x1 : Shape := ⟨3, ![2, 8192, 1]⟩
abbrev S_ : Shape := ⟨0, ![]⟩
abbrev S2x1x8192 : Shape := ⟨3, ![2, 1, 8192]⟩
abbrev S2x8192x8192 : Shape := ⟨3, ![2, 8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S2x8192x1, .f32⟩
  | .hbm, ⟨5, _⟩ => ⟨S2x8192x3, .f32⟩
  | .hbm, ⟨6, _⟩ => ⟨S2x8192x3, .f32⟩
  | .hbm, ⟨7, _⟩ => ⟨S2x8192x3, .f32⟩
  | .hbm, ⟨8, _⟩ => ⟨S_, .f32⟩
  | .hbm, ⟨9, _⟩ => ⟨S2x8192, .f32⟩
  | .hbm, ⟨10, _⟩ => ⟨S2x8192x3, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S2x1x8192, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S2x8192x8192, .f32⟩
  | .hbm, ⟨19, _⟩ => ⟨S_, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S_, .f32⟩
  | .hbm, ⟨24, _⟩ => ⟨S2x8192x8192, .f32⟩
  | .hbm, ⟨25, _⟩ => ⟨S2x8192x8192, .f32⟩
  | .hbm, ⟨26, _⟩ => ⟨S_, .f32⟩
  | .hbm, ⟨27, _⟩ => ⟨S2x8192, .f32⟩
  | .hbm, ⟨28, _⟩ => ⟨S2x8192, .f32⟩
  | .hbm, ⟨29, _⟩ => ⟨S_, .f32⟩
  | .hbm, ⟨30, _⟩ => ⟨S2x8192, .f32⟩
  | .hbm, ⟨31, _⟩ => ⟨S2x8192, .f32⟩
  | .hbm, ⟨32, _⟩ => ⟨S_, .f32⟩
  | .hbm, ⟨33, _⟩ => ⟨S2x8192, .f32⟩
  | .hbm, ⟨34, _⟩ => ⟨S2x8192, .f32⟩
  | .hbm, ⟨35, _⟩ => ⟨S_, .f32⟩
  | .hbm, ⟨36, _⟩ => ⟨S2x8192, .f32⟩
  | .hbm, ⟨37, _⟩ => ⟨S2x8192, .f32⟩
  | .hbm, ⟨38, _⟩ => ⟨S2x8192, .f32⟩
  | .hbm, ⟨39, _⟩ => ⟨S2x8192, .f32⟩
  | .hbm, ⟨40, _⟩ => ⟨S_, .f32⟩
  | .hbm, ⟨41, _⟩ => ⟨S2x8192, .f32⟩
  | .hbm, ⟨42, _⟩ => ⟨S2x8192, .f32⟩
  | .hbm, ⟨43, _⟩ => ⟨S2x8192, .f32⟩
  | .hbm, ⟨44, _⟩ => ⟨S2x8192, .f32⟩
  | .hbm, ⟨45, _⟩ => ⟨S2x8192, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S2x8192_S2x8192x1_0_1 : S2x8192.BroadcastsInDim S2x8192x1 (![0, 1] : Fin 2 → Fin S2x8192x1.rank)
  bcast_S2x8192x1_S2x8192x3_0_1_2 : S2x8192x1.BroadcastsInDim S2x8192x3 (![0, 1, 2] : Fin 3 → Fin S2x8192x3.rank)
  reducesTo_S2x8192x3_S2x8192_d2 : S2x8192x3.ReducesTo [2] S2x8192
  h_S_ : 0 < S_.numel
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  bcast_S_S2x8192 : S_.BroadcastsInDim S2x8192 (![] : Fin 0 → Fin S2x8192.rank)
  reducesTo_S2x8192x8192_S2x8192_d1 : S2x8192x8192.ReducesTo [1] S2x8192
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.ChamferSpec.lean ====
/-
  The chamfer distance between two point clouds, stated once over the extended reals, index by index.

  For a batch `b`, predicted points `x(b,p,·)` scaled by their mask `m(b,p)` and ground-truth points `y(b,g,·)` in
  three coordinates, the clamped squared distance is
      D(b,p,g) = max ((Σ_d xm² + Σ_d y²) − 2·Σ_d xm·y) 0 ,   xm(b,p,d) = x(b,p,d)·m(b,p).
  Each predicted point's nearest ground-truth point is the infimum of `D` over `g`, each ground-truth point's nearest
  predicted point the infimum over `p`; the three results are `100·√` of those infima, masked or weighted by the
  confidence.  Also here: the order laws the two programs differ by — an infimum over 8192 indices taken in eight
  consecutive runs of 1024, or accumulated over four consecutive runs of 2048, is the infimum over all of them.
-/
import Idealize.ShloMosaic.PureOps.Ideal
import Idealize.ShloMosaic.Lib.ValueIdx

noncomputable section

open scoped BigOperators

namespace Cert.Chamfer

open Idealize.ShloMosaic Idealize.ShloMosaic.ValueIdx

/-- An array of points: batch, point, coordinate. -/
abbrev Pts := (⟨3, ![2, 8192, 3]⟩ : Shape).Idx → EReal
/-- An array of per-point weights: batch, point. -/
abbrev Wts := (⟨2, ![2, 8192]⟩ : Shape).Idx → EReal

/-- The constants of both programs, kept as the words they print. -/
abbrev zero : EReal := Ideal.ofBits .f32 0x00000000#32
abbrev one : EReal := Ideal.ofBits .f32 0x3F800000#32
abbrev two : EReal := Ideal.ofBits .f32 0x40000000#32
abbrev hundred : EReal := Ideal.ofBits .f32 0x42C80000#32
abbrev inf : EReal := Ideal.ofBits .f32 0x7F800000#32

theorem inf_eq_top : inf = ⊤ := by simp [inf, Ideal.ofBits, Ideal.ieee]

section
variable (X Y : Pts) (M C : Wts)

/-- A predicted point's coordinate, scaled by the point's mask. -/
def xm (b : Fin 2) (p : Fin 8192) (d : Fin 3) : EReal := X (ix3 b p d) * M (ix2 b p)
/-- The masked predicted point's squared norm. -/
def xsq (b : Fin 2) (p : Fin 8192) : EReal := ∑ d : Fin 3, xm X M b p d * xm X M b p d
/-- A ground-truth point's squared norm. -/
def ysq (b : Fin 2) (g : Fin 8192) : EReal := ∑ d : Fin 3, Y (ix3 b g d) * Y (ix3 b g d)
/-- The inner product of a masked predicted point and a ground-truth point. -/
def dotp (b : Fin 2) (p g : Fin 8192) : EReal := ∑ d : Fin 3, xm X M b p d * Y (ix3 b g d)
/-- The clamped squared distance. -/
def dist (b : Fin 2) (p g : Fin 8192) : EReal := max ((xsq X M b p + ysq Y b g) - two * dotp X Y M b p g) zero
/-- A predicted point's squared distance to the nearest ground-truth point. -/
def rowMin (b : Fin 2) (p : Fin 8192) : EReal := Finset.univ.inf fun g : Fin 8192 => dist X Y M b p g
/-- A ground-truth point's squared distance to the nearest predicted point. -/
def colMin (b : Fin 2) (g : Fin 8192) : EReal := Finset.univ.inf fun p : Fin 8192 => dist X Y M b p g
/-- A predicted point's scaled distance to the ground truth, before masking. -/
def nearest (b : Fin 2) (p : Fin 8192) : EReal := Ideal.sqrt (rowMin X Y M b p) * hundred
/-- The masked predicted-to-ground-truth loss. -/
def lossPred (b : Fin 2) (p : Fin 8192) : EReal := nearest X Y M b p * M (ix2 b p)
/-- The confidence-weighted loss with its log-confidence term, masked. -/
def lossConf (b : Fin 2) (p : Fin 8192) : EReal :=
  (nearest X Y M b p * C (ix2 b p) - one * Ideal.log (C (ix2 b p))) * M (ix2 b p)
/-- The ground-truth-to-predicted loss. -/
def lossGt (b : Fin 2) (g : Fin 8192) : EReal := Ideal.sqrt (colMin X Y M b g) * hundred

theorem zero_le_dist (b : Fin 2) (p g : Fin 8192) : zero ≤ dist X Y M b p g := le_max_right _ _
theorem zero_le_colMin (b : Fin 2) (g : Fin 8192) : zero ≤ colMin X Y M b g :=
  Finset.le_inf fun p _ => zero_le_dist X Y M b p g
end

/-! ## An infimum over 8192 indices in consecutive runs -/

/-- Index `k` of run `c` of length 1024. -/
def run8 (c : Fin 8) (k : Fin 1024) : Fin 8192 := ⟨1024 * c.val + k.val, by have := c.isLt; have := k.isLt; omega⟩
/-- Index `k` of run `i` of length 2048. -/
def run4 (i : Fin 4) (k : Fin 2048) : Fin 8192 := ⟨2048 * i.val + k.val, by have := i.isLt; have := k.isLt; omega⟩

@[simp] theorem run8_val (c : Fin 8) (k : Fin 1024) : (run8 c k).val = 1024 * c.val + k.val := rfl
@[simp] theorem run4_val (i : Fin 4) (k : Fin 2048) : (run4 i k).val = 2048 * i.val + k.val := rfl

/-- The infimum of `f` over run `c`. -/
def inf8 (f : Fin 8192 → EReal) (c : Fin 8) : EReal := Finset.univ.inf fun k : Fin 1024 => f (run8 c k)
/-- The infimum of `f` over run `i`. -/
def inf4 (f : Fin 8192 → EReal) (i : Fin 4) : EReal := Finset.univ.inf fun k : Fin 2048 => f (run4 i k)

/-- Eight runs of 1024, folded left from the top element, give the infimum over all 8192 indices. -/
theorem fold_inf8 (f : Fin 8192 → EReal) :
    min (min (min (min (min (min (min (min ⊤ (inf8 f 0)) (inf8 f 1)) (inf8 f 2)) (inf8 f 3)) (inf8 f 4)) (inf8 f 5)) (inf8 f 6)) (inf8 f 7)
      = Finset.univ.inf f := by
  refine eq_of_forall_le_iff fun z => ?_
  simp only [le_min_iff, le_top, true_and, inf8, Finset.le_inf_iff, Finset.mem_univ, forall_true_left]
  constructor
  · rintro ⟨⟨⟨⟨⟨⟨⟨h0, h1⟩, h2⟩, h3⟩, h4⟩, h5⟩, h6⟩, h7⟩ g
    have hg := g.isLt
    have key : ∀ (c : Fin 8) (n : ℕ) (_ : c.val = n) (_ : 1024 * n ≤ g.val ∧ g.val < 1024 * n + 1024)
        (_ : ∀ k, z ≤ f (run8 c k)), z ≤ f g := by
      intro c n hn hc h
      subst hn
      have := h ⟨g.val - 1024 * c.val, by omega⟩
      rwa [show run8 c ⟨g.val - 1024 * c.val, by omega⟩ = g from Fin.ext (by simp only [run8_val]; omega)] at this
    by_cases c0 : g.val < 1024; · exact key 0 0 rfl ⟨by omega, by omega⟩ h0
    by_cases c1 : g.val < 2048; · exact key 1 1 rfl ⟨by omega, by omega⟩ h1
    by_cases c2 : g.val < 3072; · exact key 2 2 rfl ⟨by omega, by omega⟩ h2
    by_cases c3 : g.val < 4096; · exact key 3 3 rfl ⟨by omega, by omega⟩ h3
    by_cases c4 : g.val < 5120; · exact key 4 4 rfl ⟨by omega, by omega⟩ h4
    by_cases c5 : g.val < 6144; · exact key 5 5 rfl ⟨by omega, by omega⟩ h5
    by_cases c6 : g.val < 7168; · exact key 6 6 rfl ⟨by omega, by omega⟩ h6
    exact key 7 7 rfl ⟨by omega, by omega⟩ h7
  · intro h
    exact ⟨⟨⟨⟨⟨⟨⟨fun k => h _, fun k => h _⟩, fun k => h _⟩, fun k => h _⟩, fun k => h _⟩, fun k => h _⟩, fun k => h _⟩, fun k => h _⟩

/-- The infimum of `f` over the indices below `2048 · n`: what an accumulation over runs of 2048 holds after `n` runs. -/
def infBelow (f : Fin 8192 → EReal) (n : ℕ) : EReal := (Finset.univ.filter fun p : Fin 8192 => p.val < 2048 * n).inf f

theorem infBelow_zero (f : Fin 8192 → EReal) : infBelow f 0 = ⊤ := by
  unfold infBelow
  rw [Finset.filter_false_of_mem (fun p _ => by omega), Finset.inf_empty]

/-- One more run folds in by `min`. -/
theorem infBelow_succ (f : Fin 8192 → EReal) (i : Fin 4) : infBelow f (i.val + 1) = min (infBelow f i.val) (inf4 f i) := by
  refine eq_of_forall_le_iff fun z => ?_
  simp only [infBelow, inf4, le_min_iff, Finset.le_inf_iff, Finset.mem_filter, Finset.mem_univ, true_and, forall_true_left]
  have hi := i.isLt
  constructor
  · intro h
    exact ⟨fun p hp => h p (by omega), fun k => h _ (by have := k.isLt; simp only [run4_val]; omega)⟩
  · rintro ⟨h1, h2⟩ p hp
    by_cases c : p.val < 2048 * i.val
    · exact h1 p c
    · have := h2 ⟨p.val - 2048 * i.val, by omega⟩
      rwa [show run4 i ⟨p.val - 2048 * i.val, by omega⟩ = p from Fin.ext (by simp only [run4_val]; omega)] at this

/-- After all four runs: the infimum over every index. -/
theorem infBelow_four (f : Fin 8192 → EReal) : infBelow f 4 = Finset.univ.inf f := by
  unfold infBelow
  rw [Finset.filter_true_of_mem (fun p _ => by have := p.isLt; omega)]

end Cert.Chamfer

end
-- ==== Proof.RefValue.lean ====
/-
  The reference program's three results, read index by index, are the chamfer losses of the specification.

  The program scales each predicted point by its mask, forms the two squared norms and the inner product as
  three-term sums, combines them into the clamped squared distance `D(b,p,g)`, takes the minimum of `D` along
  the ground-truth axis and along the predicted axis (each a fold of `min` from `+∞`, which is the infimum),
  and finishes with `100·√`, the confidence weight, the log-confidence term and the mask.  Every stage is read
  at an index built from its coordinates; the two minima are read as folds over the reduced axis.
-/
import proofs.«114563_j5085241278567_2_alg».proof.Proof.Gen.ReferenceIdeal.Read
import proofs.«114563_j5085241278567_2_alg».proof.Proof.ChamferSpec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Chamfer

/-! ## The pointwise stages -/

section
variable (x0 x1 : (⟨S2x8192x3, .f32⟩ : BufTy).Contents (Elt Ideal)) (x2 x3 : (⟨S2x8192, .f32⟩ : BufTy).Contents (Elt Ideal))

/-- The masked predicted point: the mask is broadcast along the coordinate axis. -/
theorem xm_read (b : Fin 2) (p : Fin 8192) (d : Fin 3) :
    val_main_v2 (F := Ideal) x1 x2 (ix3 b p d) = xm x1 x2 b p d := by
  rw [val_main_v2_apply, val_main_v1_apply, val_main_v0_apply]
  have e : idx_main_v0 (idx_main_v1 (ix3 b p d)) = ix2 b p :=
    funext fun a => Fin.ext (by match a with | ⟨0, _⟩ => rfl | ⟨1, _⟩ => rfl)
  rw [e]
  rfl

/-- The masked predicted point's squared norm: a three-term sum started from the zero word. -/
theorem xsq_read (b : Fin 2) (p : Fin 8192) :
    val_main_v4 (F := Ideal) x1 x2 (ix2 b p) = xsq x1 x2 b p := by
  rw [val_main_v4_apply, val_main_cst_apply]
  show Ideal.ofBits .f32 0x00000000#32 + _ = _
  rw [Ideal.ofBits_zero_f32, zero_add]
  unfold xsq
  refine Finset.sum_congr rfl fun k _ => ?_
  have e : idx_main_v4 (ix2 b p) k = ix3 b p k :=
    funext fun a => Fin.ext (by match a with | ⟨0, _⟩ => rfl | ⟨1, _⟩ => rfl | ⟨2, _⟩ => rfl)
  rw [e, val_main_v3_apply, xm_read]
  rfl

/-- A ground-truth point's squared norm. -/
theorem ysq_read (b : Fin 2) (g : Fin 8192) :
    val_main_v6 (F := Ideal) x0 (ix2 b g) = ysq x0 b g := by
  rw [val_main_v6_apply, val_main_cst_0_apply]
  show Ideal.ofBits .f32 0x00000000#32 + _ = _
  rw [Ideal.ofBits_zero_f32, zero_add]
  unfold ysq
  refine Finset.sum_congr rfl fun k _ => ?_
  have e : idx_main_v6 (ix2 b g) k = ix3 b g k :=
    funext fun a => Fin.ext (by match a with | ⟨0, _⟩ => rfl | ⟨1, _⟩ => rfl | ⟨2, _⟩ => rfl)
  rw [e, val_main_v5_apply]
  rfl

/-- The inner product of a masked predicted point and a ground-truth point: the contraction over the coordinate. -/
theorem dotp_read (b : Fin 2) (p g : Fin 8192) :
    val_main_v12 (F := Ideal) x0 x1 x2 (ix3 b p g) = dotp x1 x0 x2 b p g := by
  rw [val_main_v12_apply]
  unfold dotp
  refine Finset.sum_congr rfl fun k _ => ?_
  have el : lidx_main_v12 (ix3 b p g) k = ix3 b p k :=
    funext fun a => Fin.ext (by match a with | ⟨0, _⟩ => rfl | ⟨1, _⟩ => rfl | ⟨2, _⟩ => rfl)
  have er : ridx_main_v12 (ix3 b p g) k = ix3 b g k :=
    funext fun a => Fin.ext (by match a with | ⟨0, _⟩ => rfl | ⟨1, _⟩ => rfl | ⟨2, _⟩ => rfl)
  rw [el, er, xm_read]

/-- The clamped squared distance: the two norms broadcast across each other's axis, minus twice the inner product. -/
theorem dist_read (b : Fin 2) (p g : Fin 8192) :
    val_main_v17 (F := Ideal) x0 x1 x2 (ix3 b p g) = dist x1 x0 x2 b p g := by
  rw [val_main_v17_apply, val_main_v15_apply, val_main_v11_apply, val_main_v9_apply, val_main_v7_apply,
    val_main_v10_apply, val_main_v8_apply, val_main_v14_apply, val_main_v13_apply, val_main_cst_1_apply,
    val_main_v16_apply, val_main_cst_2_apply]
  have ep : idx_main_v7 (idx_main_v9 (ix3 b p g)) = ix2 b p :=
    funext fun a => Fin.ext (by match a with | ⟨0, _⟩ => rfl | ⟨1, _⟩ => rfl)
  have eg : idx_main_v8 (idx_main_v10 (ix3 b p g)) = ix2 b g :=
    funext fun a => Fin.ext (by match a with | ⟨0, _⟩ => rfl | ⟨1, _⟩ => rfl)
  rw [ep, eg, xsq_read, ysq_read, dotp_read]
  rfl

end

/-! ## The two minima -/

/-- A fold of `min` from the top element over all 8192 indices is the infimum. -/
theorem fold_min_top (f : Fin 8192 → EReal) : (Finset.univ : Finset (Fin 8192)).fold min (⊤ : EReal) f = Finset.univ.inf f := by
  refine eq_of_forall_le_iff fun c => ?_
  rw [Finset.le_fold_min, Finset.le_inf_iff]
  simp only [le_top, true_and]

/-- The last axis of the distance array is dropped: the predicted-point index with `g` put back is `(b, p, g)`. -/
theorem lift_last (h : S2x8192x8192.Reduces [2] S2x8192) (b : Fin 2) (p : Fin 8192) (g : Fin (S2x8192x8192.size 2)) :
    h.lift (ix2 b p) g = ix3 b p (⟨g.val, g.isLt⟩ : Fin 8192) :=
  funext fun c => Fin.ext (by match c with | ⟨0, _⟩ => rfl | ⟨1, _⟩ => rfl | ⟨2, _⟩ => rfl)

/-- The middle axis of the distance array is dropped: the ground-truth index with `p` put back is `(b, p, g)`. -/
theorem lift_mid (h : S2x8192x8192.Reduces [1] S2x8192) (b : Fin 2) (g : Fin 8192) (p : Fin (S2x8192x8192.size 1)) :
    h.lift (ix2 b g) p = ix3 b (⟨p.val, p.isLt⟩ : Fin 8192) g :=
  funext fun c => Fin.ext (by match c with | ⟨0, _⟩ => rfl | ⟨1, _⟩ => rfl | ⟨2, _⟩ => rfl)

section
variable (x0 x1 : (⟨S2x8192x3, .f32⟩ : BufTy).Contents (Elt Ideal)) (x2 x3 : (⟨S2x8192, .f32⟩ : BufTy).Contents (Elt Ideal))

/-- The minimum along the ground-truth axis, started from `+∞`, is the infimum over the ground-truth points. -/
theorem rowMin_read (b : Fin 2) (p : Fin 8192) :
    val_main_v18 (F := Ideal) x0 x1 x2 (ix2 b p) = rowMin x1 x0 x2 b p := by
  have h : S2x8192x8192.Reduces [2] S2x8192 := by decide
  unfold val_main_v18
  rw [Host.reduce_eq_fold_single FloatOps.minimumf _ _ reducesTo_S2x8192x8192_S2x8192_d2 h h_S_]
  have hf : (val_main_v17 (F := Ideal) x0 x1 x2 ∘ h.lift (ix2 b p)) = fun g : Fin 8192 => dist x1 x0 x2 b p g :=
    funext fun g => by
      show val_main_v17 (F := Ideal) x0 x1 x2 (h.lift (ix2 b p) g) = _
      rw [lift_last, dist_read]
      rfl
  have h0 : val_main_cst_3 (F := Ideal) (Shape.Idx.first h_S_) = (⊤ : EReal) := inf_eq_top
  rw [h0]
  exact (congrArg (fun f => Finset.fold min (⊤ : EReal) f (Finset.univ : Finset (Fin 8192))) hf).trans (fold_min_top _)

/-- The minimum along the predicted axis, started from `+∞`, is the infimum over the predicted points. -/
theorem colMin_read (b : Fin 2) (g : Fin 8192) :
    val_main_v22 (F := Ideal) x0 x1 x2 (ix2 b g) = colMin x1 x0 x2 b g := by
  have h : S2x8192x8192.Reduces [1] S2x8192 := by decide
  unfold val_main_v22
  rw [Host.reduce_eq_fold_single FloatOps.minimumf _ _ reducesTo_S2x8192x8192_S2x8192_d1 h h_S_]
  have hf : (val_main_v17 (F := Ideal) x0 x1 x2 ∘ h.lift (ix2 b g)) = fun p : Fin 8192 => dist x1 x0 x2 b p g :=
    funext fun p => by
      show val_main_v17 (F := Ideal) x0 x1 x2 (h.lift (ix2 b g) p) = _
      rw [lift_mid, dist_read]
      rfl
  have h0 : val_main_cst_5 (F := Ideal) (Shape.Idx.first h_S_) = (⊤ : EReal) := inf_eq_top
  rw [h0]
  exact (congrArg (fun f => Finset.fold min (⊤ : EReal) f (Finset.univ : Finset (Fin 8192))) hf).trans (fold_min_top _)

/-! ## The three results -/

/-- A predicted point's scaled distance to the ground truth, before masking. -/
theorem nearest_read (b : Fin 2) (p : Fin 8192) :
    val_main_v21 (F := Ideal) x0 x1 x2 (ix2 b p) = nearest x1 x0 x2 b p := by
  rw [val_main_v21_apply, val_main_v19_apply, val_main_v20_apply, val_main_cst_4_apply, rowMin_read]
  rfl

/-- The confidence-weighted loss. -/
theorem ref_conf (x0 x1 : (⟨S2x8192x3, .f32⟩ : BufTy).Contents (Elt Ideal)) (x2 x3 : (⟨S2x8192, .f32⟩ : BufTy).Contents (Elt Ideal))
    (i : S2x8192.Idx) :
    Cert.ReferenceIdeal.Read.val_main_v31 (F := Ideal) x0 x1 x2 x3 i = Cert.Chamfer.lossConf x1 x0 x2 x3 (i 0) (i 1) := by
  obtain ⟨b, p, rfl⟩ : ∃ (b : Fin 2) (p : Fin 8192), i = ix2 b p := ⟨i 0, i 1, eq_ix2 i⟩
  rw [val_main_v31_apply, val_main_v30_apply, val_main_v26_apply, val_main_v29_apply, val_main_v28_apply,
    val_main_cst_7_apply, val_main_v27_apply, nearest_read]
  rfl

/-- The masked predicted-to-ground-truth loss. -/
theorem ref_pred (x0 x1 : (⟨S2x8192x3, .f32⟩ : BufTy).Contents (Elt Ideal)) (x2 : (⟨S2x8192, .f32⟩ : BufTy).Contents (Elt Ideal))
    (i : S2x8192.Idx) :
    Cert.ReferenceIdeal.Read.val_main_v32 (F := Ideal) x0 x1 x2 i = Cert.Chamfer.lossPred x1 x0 x2 (i 0) (i 1) := by
  obtain ⟨b, p, rfl⟩ : ∃ (b : Fin 2) (p : Fin 8192), i = ix2 b p := ⟨i 0, i 1, eq_ix2 i⟩
  rw [val_main_v32_apply, nearest_read]
  rfl

/-- The ground-truth-to-predicted loss. -/
theorem ref_gt (x0 x1 : (⟨S2x8192x3, .f32⟩ : BufTy).Contents (Elt Ideal)) (x2 : (⟨S2x8192, .f32⟩ : BufTy).Contents (Elt Ideal))
    (i : S2x8192.Idx) :
    Cert.ReferenceIdeal.Read.val_main_v25 (F := Ideal) x0 x1 x2 i = Cert.Chamfer.lossGt x1 x0 x2 (i 0) (i 1) := by
  obtain ⟨b, g, rfl⟩ : ∃ (b : Fin 2) (g : Fin 8192), i = ix2 b g := ⟨i 0, i 1, eq_ix2 i⟩
  rw [val_main_v25_apply, val_main_v23_apply, val_main_v24_apply, val_main_cst_6_apply, colMin_read]
  rfl

end

end Cert.ReferenceIdeal.RefValue

end
-- ==== Proof.KernelIO.lean ====
/-
  The chamfer kernel's traffic with its arrays, apart from what its body computes.

  The grid is 2 × 4: point `t` serves batch `t / 4` and the tile `t % 4` of 2048 predicted points.  Here: what
  each of the four input blocks of a point holds, read off the program's arguments through the transposes and
  the unit-axis broadcasts made before the region; how the three result arrays are assembled from what the
  points write back (the two per-tile results from every point's block, the accumulated one from the last
  point of each batch); and the reshapes after the region that drop the unit axis.
-/
import proofs.«114563_j5085241278567_2_alg».proof.Proof.Gen.KernelIdeal.Frame
import proofs.«114563_j5085241278567_2_alg».proof.Proof.ChamferSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.IO

open Cert.KernelIdeal Cert.KernelIdeal.Gen Idealize.ShloMosaic.ValueIdx
open Cert.Chamfer (run4)

variable {F : FTy → Type} [FloatOps F]
variable (m : (ℓ : Loc nD τ sig) → Buf (Elt F) ℓ) (ρ : Dev nD → PrngReg)

/-! ## The index maps, decided once over the grid

Grid point `t` is batch `t / 4`, tile `t % 4`.  The predicted-side windows (0, 2, 3) and the two per-tile results
(4, 5) sit at block `(t / 4, 0, t % 4)`; the ground-truth window (1) and the accumulated result (6) at
`(t / 4, 0, 0)`. -/

theorem idx0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem idx1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
theorem idx3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
theorem idx4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)
theorem idx5 : ∀ t : Fin cfg0.N, win0_5.index t 0 = t.val / 4 ∧ win0_5.index t 1 = 0 ∧ win0_5.index t 2 = t.val % 4 :=
  (by decide +kernel : ∀ t : Fin grid0.N, win0_5.index t 0 = t.val / 4 ∧ win0_5.index t 1 = 0 ∧ win0_5.index t 2 = t.val % 4)
theorem idx6 : ∀ t : Fin cfg0.N, win0_6.index t 0 = t.val / 4 ∧ win0_6.index t 1 = 0 ∧ win0_6.index t 2 = 0 :=
  (by decide +kernel : ∀ t : Fin grid0.N, win0_6.index t 0 = t.val / 4 ∧ win0_6.index t 1 = 0 ∧ win0_6.index t 2 = 0)

/-! ## What the region finds in the four staged arrays

Before the region the two point arrays are transposed to coordinate-major and the two weight arrays get a unit
middle axis. -/

theorem V_v1 (c : Dev nD) : (V m c main_v1 : S2x3x8192.Idx → Elt F .f32)
    = transpose S2x3x8192 [0, 2, 1] (m ((c.tc : Thread nD τ).loc main_arg1)) transposes_S2x8192x3_S2x3x8192_0_2_1 := by
  show StableHlo.after hostOps0 (fun b => m (c, b)) (Proc.devRef .tc main_v1) = _
  after_results
theorem V_v0 (c : Dev nD) : (V m c main_v0 : S2x3x8192.Idx → Elt F .f32)
    = transpose S2x3x8192 [0, 2, 1] (m ((c.tc : Thread nD τ).loc main_arg0)) transposes_S2x8192x3_S2x3x8192_0_2_1 := by
  show StableHlo.after hostOps0 (fun b => m (c, b)) (Proc.devRef .tc main_v0) = _
  after_results
theorem V_v2 (c : Dev nD) : (V m c main_v2 : S2x1x8192.Idx → Elt F .f32)
    = broadcastInDim S2x1x8192 ![0, 2] bcast_S2x8192_S2x1x8192_0_2 (m ((c.tc : Thread nD τ).loc main_arg2)) := by
  show StableHlo.after hostOps0 (fun b => m (c, b)) (Proc.devRef .tc main_v2) = _
  after_results
theorem V_v3 (c : Dev nD) : (V m c main_v3 : S2x1x8192.Idx → Elt F .f32)
    = broadcastInDim S2x1x8192 ![0, 2] bcast_S2x8192_S2x1x8192_0_2 (m ((c.tc : Thread nD τ).loc main_arg3)) := by
  show StableHlo.after hostOps0 (fun b => m (c, b)) (Proc.devRef .tc main_v3) = _
  after_results

/-! ## The four input blocks of a point, read off the arguments

At point `t` of batch `b` and tile `i`: the predicted block holds the tile's 2048 points coordinate-major, the
ground-truth block all 8192 points of the batch, the two weight blocks the tile's 2048 weights. -/

/-- The predicted points' block: coordinate `d` of point `p` of tile `i`. -/
theorem blk0 (c : Dev nD) (t : Fin cfg0.N) (b : Fin 2) (i : Fin 4) (hb : b.val = t.val / 4) (hi : i.val = t.val % 4)
    (d : Fin 3) (p : Fin 2048) :
    (iblk m c 0 t : Vec F S1x3x2048 .f32) (ix3 (0 : Fin 1) d p) = m ((c.tc : Thread nD τ).loc main_arg1) (ix3 b (run4 i p) d) := by
  unfold iblk
  rw [View.read_apply]
  show V m c main_v1 (((cfg0.win 0).blk t).view.emb (ix3 (0 : Fin 1) d p)) = _
  rw [V_v1]
  obtain ⟨e0, e1, e2⟩ := idx0 t
  refine transpose_apply _ _ _ _ _ fun a => ?_
  match a with
  | ⟨0, _⟩ => show b.val = win0_0.index t 0 * 1 + 1 * 0; rw [e0, hb]; omega
  | ⟨1, _⟩ => show d.val = win0_0.index t 1 * 3 + 1 * d.val; rw [e1]; omega
  | ⟨2, _⟩ => show 2048 * i.val + p.val = win0_0.index t 2 * 2048 + 1 * p.val; rw [e2, hi]; omega

/-- The ground-truth points' block: coordinate `d` of point `g` of the batch. -/
theorem blk1 (c : Dev nD) (t : Fin cfg0.N) (b : Fin 2) (hb : b.val = t.val / 4) (d : Fin 3) (g : Fin 8192) :
    (iblk m c 1 t : Vec F S1x3x8192 .f32) (ix3 (0 : Fin 1) d g) = m ((c.tc : Thread nD τ).loc main_arg0) (ix3 b g d) := by
  unfold iblk
  rw [View.read_apply]
  show V m c main_v0 (((cfg0.win 1).blk t).view.emb (ix3 (0 : Fin 1) d g)) = _
  rw [V_v0]
  obtain ⟨e0, e1, e2⟩ := idx1 t
  refine transpose_apply _ _ _ _ _ fun a => ?_
  match a with
  | ⟨0, _⟩ => show b.val = win0_1.index t 0 * 1 + 1 * 0; rw [e0, hb]; omega
  | ⟨1, _⟩ => show d.val = win0_1.index t 1 * 3 + 1 * d.val; rw [e1]; omega
  | ⟨2, _⟩ => show g.val = win0_1.index t 2 * 8192 + 1 * g.val; rw [e2]; omega

/-- The mask's block: the weight of point `p` of tile `i`. -/
theorem blk2 (c : Dev nD) (t : Fin cfg0.N) (b : Fin 2) (i : Fin 4) (hb : b.val = t.val / 4) (hi : i.val = t.val % 4)
    (p : Fin 2048) :
    (iblk m c 2 t : Vec F S1x1x2048 .f32) (ix3 (0 : Fin 1) (0 : Fin 1) p) = m ((c.tc : Thread nD τ).loc main_arg2) (ix2 b (run4 i p)) := by
  unfold iblk
  rw [View.read_apply]
  show V m c main_v2 (((cfg0.win 2).blk t).view.emb (ix3 (0 : Fin 1) (0 : Fin 1) p)) = _
  rw [V_v2]
  obtain ⟨e0, e1, e2⟩ := idx2 t
  refine broadcastInDim_apply _ _ _ _ _ fun a => ?_
  match a with
  | ⟨0, _⟩ => show b.val = if (2 : Nat) = 1 then 0 else win0_2.index t 0 * 1 + 1 * 0; rw [if_neg (by decide), e0, hb]; omega
  | ⟨1, _⟩ => show 2048 * i.val + p.val = if (8192 : Nat) = 1 then 0 else win0_2.index t 2 * 2048 + 1 * p.val; rw [if_neg (by decide), e2, hi]; omega

/-- The confidence's block: the weight of point `p` of tile `i`. -/
theorem blk3 (c : Dev nD) (t : Fin cfg0.N) (b : Fin 2) (i : Fin 4) (hb : b.val = t.val / 4) (hi : i.val = t.val % 4)
    (p : Fin 2048) :
    (iblk m c 3 t : Vec F S1x1x2048 .f32) (ix3 (0 : Fin 1) (0 : Fin 1) p) = m ((c.tc : Thread nD τ).loc main_arg3) (ix2 b (run4 i p)) := by
  unfold iblk
  rw [View.read_apply]
  show V m c main_v3 (((cfg0.win 3).blk t).view.emb (ix3 (0 : Fin 1) (0 : Fin 1) p)) = _
  rw [V_v3]
  obtain ⟨e0, e1, e2⟩ := idx3 t
  refine broadcastInDim_apply _ _ _ _ _ fun a => ?_
  match a with
  | ⟨0, _⟩ => show b.val = if (2 : Nat) = 1 then 0 else win0_3.index t 0 * 1 + 1 * 0; rw [if_neg (by decide), e0, hb]; omega
  | ⟨1, _⟩ => show 2048 * i.val + p.val = if (8192 : Nat) = 1 then 0 else win0_3.index t 2 * 2048 + 1 * p.val; rw [if_neg (by decide), e2, hi]; omega

/-! ## The result arrays from what the points write back

Each of the two per-tile results is written back at every point, block `(t / 4, 0, t % 4)` of 2048 entries: the
eight blocks tile the `[2, 1, 8192]` array, entry `(b, 0, q)` lying in the block of point `4 b + q / 2048`.  The
accumulated result is written back only at the last point of each batch (`t % 4 = 3`), block `(t / 4, 0, 0)` of all
8192 entries: entry `(b, 0, g)` lies in the block of point `4 b + 3`. -/

/-- A block of 2048 read at its only row, against an array read in tile `i` of batch `b`. -/
theorem tile_at (X : S1x1x2048.Idx → Elt F .f32) (G : S2x1x8192.Idx → Elt F .f32) (b : Fin 2) (i : Fin 4)
    (h : ∀ p : Fin 2048, X (ix3 (0 : Fin 1) (0 : Fin 1) p) = G (ix3 b (0 : Fin 1) (run4 i p)))
    (j : S1x1x2048.Idx) (k : S2x1x8192.Idx) (h0 : (k 0).val = b.val) (h2 : (k 2).val = 2048 * i.val + (j 2).val) :
    X j = G k := by
  have ej : j = ix3 (0 : Fin 1) (0 : Fin 1) (j 2) := funext fun a => Fin.ext (by
    match a with
    | ⟨0, _⟩ => have : (j 0).val < 1 := (j 0).isLt; show (j 0).val = 0; omega
    | ⟨1, _⟩ => have : (j 1).val < 1 := (j 1).isLt; show (j 1).val = 0; omega
    | ⟨2, _⟩ => rfl)
  have ek : k = ix3 b (0 : Fin 1) (run4 i (j 2)) := funext fun a => Fin.ext (by
    match a with
    | ⟨0, _⟩ => exact h0
    | ⟨1, _⟩ => have : (k 1).val < 1 := (k 1).isLt; show (k 1).val = 0; omega
    | ⟨2, _⟩ => exact h2)
  rw [ej, ek]
  exact h (j 2)

/-- A block of 8192 read at its only row, against an array read in batch `b`. -/
theorem row_at (X : S1x1x8192.Idx → Elt F .f32) (G : S2x1x8192.Idx → Elt F .f32) (b : Fin 2)
    (h : ∀ g : Fin 8192, X (ix3 (0 : Fin 1) (0 : Fin 1) g) = G (ix3 b (0 : Fin 1) g))
    (j : S1x1x8192.Idx) (k : S2x1x8192.Idx) (h0 : (k 0).val = b.val) (h2 : (k 2).val = (j 2).val) :
    X j = G k := by
  have ej : j = ix3 (0 : Fin 1) (0 : Fin 1) (j 2) := funext fun a => Fin.ext (by
    match a with
    | ⟨0, _⟩ => have : (j 0).val < 1 := (j 0).isLt; show (j 0).val = 0; omega
    | ⟨1, _⟩ => have : (j 1).val < 1 := (j 1).isLt; show (j 1).val = 0; omega
    | ⟨2, _⟩ => rfl)
  have ek : k = ix3 b (0 : Fin 1) (j 2) := funext fun a => Fin.ext (by
    match a with
    | ⟨0, _⟩ => exact h0
    | ⟨1, _⟩ => have : (k 1).val < 1 := (k 1).isLt; show (k 1).val = 0; omega
    | ⟨2, _⟩ => exact h2)
  rw [ej, ek]
  exact h (j 2)

/-- What a point writes back to the first per-tile result is its block of `G`, when the body leaves `G`'s tile there. -/
theorem writeback4_tile (c : Dev nD) (G : S2x1x8192.Idx → Elt F .f32)
    (h : ∀ (t : Fin cfg0.N) (b : Fin 2) (i : Fin 4), b.val = t.val / 4 → i.val = t.val % 4 → ∀ p : Fin 2048,
      ((dats m 0 c).after 4 t : Vec F S1x1x2048 .f32) (ix3 (0 : Fin 1) (0 : Fin 1) p) = G (ix3 b (0 : Fin 1) (run4 i p)))
    (t : Fin cfg0.N) :
    (dats m 0 c).flushed 4 t = ((cfg0.win 4).blk t).view.read (Elt F) G := by
  have hN : cfg0.N = 8 := N_0
  have ht := t.isLt
  show (cfg0.win 4).cut (grid0.coords t) ((dats m 0 c).after 4 t) = _
  funext j
  rw [View.read_apply]
  obtain ⟨e0, e1, e2⟩ := idx4 t
  show ((dats m 0 c).after 4 t : Vec F S1x1x2048 .f32) ((cfg0.win 4).xinj (grid0.coords t) j) = G (((cfg0.win 4).blk t).view.emb j)
  refine tile_at ((dats m 0 c).after 4 t) G ⟨t.val / 4, by omega⟩ ⟨t.val % 4, by omega⟩ (h t _ _ rfl rfl) _ _ ?_ ?_
  · show win0_4.index t 0 * 1 + 1 * (j 0).val = t.val / 4
    have : (j 0).val < 1 := (j 0).isLt
    omega
  · show win0_4.index t 2 * 2048 + 1 * (j 2).val = 2048 * (t.val % 4) + (j 2).val
    omega

/-- The first per-tile result array, from what the body leaves at each point. -/
theorem arr4_of_tiles (c : Dev nD) (G : S2x1x8192.Idx → Elt F .f32)
    (h : ∀ (t : Fin cfg0.N) (b : Fin 2) (i : Fin 4), b.val = t.val / 4 → i.val = t.val % 4 → ∀ p : Fin 2048,
      ((dats m 0 c).after 4 t : Vec F S1x1x2048 .f32) (ix3 (0 : Fin 1) (0 : Fin 1) p) = G (ix3 b (0 : Fin 1) (run4 i p))) :
    (dats m 0 c).arrAt 4 cfg0.N = G :=
  (dats m 0 c).arrAt_eq_of_cover 4 G (fun t _ => writeback4_tile m c G h t) fun i => by
    have hN : cfg0.N = 8 := N_0
    have h0 : (i 0).val < 2 := (i 0).isLt
    have h1 : (i 1).val < 1 := (i 1).isLt
    have h2 : (i 2).val < 8192 := (i 2).isLt
    obtain ⟨t, ht⟩ : ∃ t : Fin cfg0.N, t.val = 4 * (i 0).val + (i 2).val / 2048 := ⟨⟨_, by omega⟩, rfl⟩
    obtain ⟨e0, e1, e2⟩ := idx4 t
    refine ⟨t, flush0_4 t, ?_⟩
    show i ∈ ((View.whole main_v4_0).slice (win0_4.rect t)).set
    rw [View.set_slice_whole, Rect.mem_set_unit]
    intro a
    match a with
    | ⟨0, _⟩ => show win0_4.index t 0 * 1 ≤ (i 0).val ∧ (i 0).val < win0_4.index t 0 * 1 + 1; omega
    | ⟨1, _⟩ => show win0_4.index t 1 * 1 ≤ (i 1).val ∧ (i 1).val < win0_4.index t 1 * 1 + 1; omega
    | ⟨2, _⟩ => show win0_4.index t 2 * 2048 ≤ (i 2).val ∧ (i 2).val < win0_4.index t 2 * 2048 + 2048; omega

/-- What a point writes back to the second per-tile result is its block of `G`, when the body leaves `G`'s tile there. -/
theorem writeback5_tile (c : Dev nD) (G : S2x1x8192.Idx → Elt F .f32)
    (h : ∀ (t : Fin cfg0.N) (b : Fin 2) (i : Fin 4), b.val = t.val / 4 → i.val = t.val % 4 → ∀ p : Fin 2048,
      ((dats m 0 c).after 5 t : Vec F S1x1x2048 .f32) (ix3 (0 : Fin 1) (0 : Fin 1) p) = G (ix3 b (0 : Fin 1) (run4 i p)))
    (t : Fin cfg0.N) :
    (dats m 0 c).flushed 5 t = ((cfg0.win 5).blk t).view.read (Elt F) G := by
  have hN : cfg0.N = 8 := N_0
  have ht := t.isLt
  show (cfg0.win 5).cut (grid0.coords t) ((dats m 0 c).after 5 t) = _
  funext j
  rw [View.read_apply]
  obtain ⟨e0, e1, e2⟩ := idx5 t
  show ((dats m 0 c).after 5 t : Vec F S1x1x2048 .f32) ((cfg0.win 5).xinj (grid0.coords t) j) = G (((cfg0.win 5).blk t).view.emb j)
  refine tile_at ((dats m 0 c).after 5 t) G ⟨t.val / 4, by omega⟩ ⟨t.val % 4, by omega⟩ (h t _ _ rfl rfl) _ _ ?_ ?_
  · show win0_5.index t 0 * 1 + 1 * (j 0).val = t.val / 4
    have : (j 0).val < 1 := (j 0).isLt
    omega
  · show win0_5.index t 2 * 2048 + 1 * (j 2).val = 2048 * (t.val % 4) + (j 2).val
    omega

/-- The second per-tile result array, from what the body leaves at each point. -/
theorem arr5_of_tiles (c : Dev nD) (G : S2x1x8192.Idx → Elt F .f32)
    (h : ∀ (t : Fin cfg0.N) (b : Fin 2) (i : Fin 4), b.val = t.val / 4 → i.val = t.val % 4 → ∀ p : Fin 2048,
      ((dats m 0 c).after 5 t : Vec F S1x1x2048 .f32) (ix3 (0 : Fin 1) (0 : Fin 1) p) = G (ix3 b (0 : Fin 1) (run4 i p))) :
    (dats m 0 c).arrAt 5 cfg0.N = G :=
  (dats m 0 c).arrAt_eq_of_cover 5 G (fun t _ => writeback5_tile m c G h t) fun i => by
    have hN : cfg0.N = 8 := N_0
    have h0 : (i 0).val < 2 := (i 0).isLt
    have h1 : (i 1).val < 1 := (i 1).isLt
    have h2 : (i 2).val < 8192 := (i 2).isLt
    obtain ⟨t, ht⟩ : ∃ t : Fin cfg0.N, t.val = 4 * (i 0).val + (i 2).val / 2048 := ⟨⟨_, by omega⟩, rfl⟩
    obtain ⟨e0, e1, e2⟩ := idx5 t
    refine ⟨t, flush0_5 t, ?_⟩
    show i ∈ ((View.whole main_v4_1).slice (win0_5.rect t)).set
    rw [View.set_slice_whole, Rect.mem_set_unit]
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 2048 ≤ (i 2).val ∧ (i 2).val < win0_5.index t 2 * 2048 + 2048; omega

/-- What the last point of a batch writes back to the accumulated result is its block of `G`, when the body leaves `G`'s row there. -/
theorem writeback6_row (c : Dev nD) (G : S2x1x8192.Idx → Elt F .f32)
    (h : ∀ (t : Fin cfg0.N) (b : Fin 2), t.val % 4 = 3 → b.val = t.val / 4 → ∀ g : Fin 8192,
      ((dats m 0 c).after 6 t : Vec F S1x1x8192 .f32) (ix3 (0 : Fin 1) (0 : Fin 1) g) = G (ix3 b (0 : Fin 1) g))
    (t : Fin cfg0.N) (hf : (cfg0.win 6).flush t = true) :
    (dats m 0 c).flushed 6 t = ((cfg0.win 6).blk t).view.read (Elt F) G := by
  have hN : cfg0.N = 8 := N_0
  have ht := t.isLt
  have h3 : t.val % 4 = 3 := (flush0_6 t).mp hf
  show (cfg0.win 6).cut (grid0.coords t) ((dats m 0 c).after 6 t) = _
  funext j
  rw [View.read_apply]
  obtain ⟨e0, e1, e2⟩ := idx6 t
  show ((dats m 0 c).after 6 t : Vec F S1x1x8192 .f32) ((cfg0.win 6).xinj (grid0.coords t) j) = G (((cfg0.win 6).blk t).view.emb j)
  refine row_at ((dats m 0 c).after 6 t) G ⟨t.val / 4, by omega⟩ (h t _ h3 rfl) _ _ ?_ ?_
  · show win0_6.index t 0 * 1 + 1 * (j 0).val = t.val / 4
    have : (j 0).val < 1 := (j 0).isLt
    omega
  · show win0_6.index t 2 * 8192 + 1 * (j 2).val = (j 2).val
    omega

/-- The accumulated result array, from what the body leaves at the last point of each batch. -/
theorem arr6_of_rows (c : Dev nD) (G : S2x1x8192.Idx → Elt F .f32)
    (h : ∀ (t : Fin cfg0.N) (b : Fin 2), t.val % 4 = 3 → b.val = t.val / 4 → ∀ g : Fin 8192,
      ((dats m 0 c).after 6 t : Vec F S1x1x8192 .f32) (ix3 (0 : Fin 1) (0 : Fin 1) g) = G (ix3 b (0 : Fin 1) g)) :
    (dats m 0 c).arrAt 6 cfg0.N = G :=
  (dats m 0 c).arrAt_eq_of_cover 6 G (fun t hf => writeback6_row m c G h t hf) fun i => by
    have hN : cfg0.N = 8 := N_0
    have h0 : (i 0).val < 2 := (i 0).isLt
    have h1 : (i 1).val < 1 := (i 1).isLt
    have h2 : (i 2).val < 8192 := (i 2).isLt
    obtain ⟨t, ht⟩ : ∃ t : Fin cfg0.N, t.val = 4 * (i 0).val + 3 := ⟨⟨_, by omega⟩, rfl⟩
    obtain ⟨e0, e1, e2⟩ := idx6 t
    refine ⟨t, (flush0_6 t).mpr (by omega), ?_⟩
    show i ∈ ((View.whole main_v4_2).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1 ≤ (i 1).val ∧ (i 1).val < win0_6.index t 1 * 1 + 1; omega
    | ⟨2, _⟩ => show win0_6.index t 2 * 8192 ≤ (i 2).val ∧ (i 2).val < win0_6.index t 2 * 8192 + 8192; omega

/-! ## The reshapes after the region

After the region each `[2, 1, 8192]` result array is reshaped to `[2, 8192]`: entry `(b, q)` is entry `(b, 0, q)`. -/

/-- The two positions coincide in row-major order. -/
theorem reshape_at (x : S2x1x8192.Idx → Elt F .f32) (b : Fin 2) (q : Fin 8192) :
    shapeCast S2x8192 x shapeCasts_S2x1x8192_S2x8192 (ix2 b q) = x (ix3 b (0 : Fin 1) q) :=
  shapeCast_apply x _ _ _ (by
    rw [Shape.rowMajor_val_three, Shape.rowMajor_val_two]
    show (b.val * 1 + 0) * 8192 + q.val = b.val * 8192 + q.val
    omega)

/-- The first result after the region: the reshape of the first per-tile result array. -/
theorem tail5_eq (c : Dev nD) :
    (Pipeline.afterTail₀ cfgs (dats m) 0 (V0 m) [hostOps1] c main_v5 : S2x8192.Idx → Elt F .f32)
      = shapeCast S2x8192 ((dats m 0 c).arrAt 4 cfg0.N) shapeCasts_S2x1x8192_S2x8192 := by
  unfold Pipeline.afterTail₀
  show StableHlo.after hostOps1 _ (Proc.devRef .tc main_v5) = _
  after_results
  have e := Pipeline.withArrays_arr (τ := τ) spec0 launch0.win.arr_inj c (V0 m c) (fun w => (dats m 0 c).arrAt w cfg0.N) 4
  show shapeCast S2x8192 (Pipeline.withArrays spec0 c (V0 m c) (fun w => (dats m 0 c).arrAt w cfg0.N)
    (Proc.devRef .tc (Pipeline.arrRef spec0 4))) shapeCasts_S2x1x8192_S2x8192 = _
  rw [e]

/-- The second result after the region: the reshape of the second per-tile result array. -/
theorem tail6_eq (c : Dev nD) :
    (Pipeline.afterTail₀ cfgs (dats m) 0 (V0 m) [hostOps1] c main_v6 : S2x8192.Idx → Elt F .f32)
      = shapeCast S2x8192 ((dats m 0 c).arrAt 5 cfg0.N) shapeCasts_S2x1x8192_S2x8192 := by
  unfold Pipeline.afterTail₀
  show StableHlo.after hostOps1 _ (Proc.devRef .tc main_v6) = _
  after_results
  have e := Pipeline.withArrays_arr (τ := τ) spec0 launch0.win.arr_inj c (V0 m c) (fun w => (dats m 0 c).arrAt w cfg0.N) 5
  show shapeCast S2x8192 (Pipeline.withArrays spec0 c (V0 m c) (fun w => (dats m 0 c).arrAt w cfg0.N)
    (Proc.devRef .tc (Pipeline.arrRef spec0 5))) shapeCasts_S2x1x8192_S2x8192 = _
  rw [e]

/-- The third result after the region: the reshape of the accumulated result array. -/
theorem tail7_eq (c : Dev nD) :
    (Pipeline.afterTail₀ cfgs (dats m) 0 (V0 m) [hostOps1] c main_v7 : S2x8192.Idx → Elt F .f32)
      = shapeCast S2x8192 ((dats m 0 c).arrAt 6 cfg0.N) shapeCasts_S2x1x8192_S2x8192 := by
  unfold Pipeline.afterTail₀
  show StableHlo.after hostOps1 _ (Proc.devRef .tc main_v7) = _
  after_results
  have e := Pipeline.withArrays_arr (τ := τ) spec0 launch0.win.arr_inj c (V0 m c) (fun w => (dats m 0 c).arrAt w cfg0.N) 6
  show shapeCast S2x8192 (Pipeline.withArrays spec0 c (V0 m c) (fun w => (dats m 0 c).arrAt w cfg0.N)
    (Proc.devRef .tc (Pipeline.arrRef spec0 6))) shapeCasts_S2x1x8192_S2x8192 = _
  rw [e]

/-- Entry `(b, q)` of the first result is entry `(b, 0, q)` of the first per-tile result array. -/
theorem tail5 (c : Dev nD) (b : Fin 2) (q : Fin 8192) :
    (Pipeline.afterTail₀ cfgs (dats m) 0 (V0 m) [hostOps1] c main_v5 : S2x8192.Idx → Elt F .f32) (ix2 b q)
      = ((dats m 0 c).arrAt 4 cfg0.N : S2x1x8192.Idx → Elt F .f32) (ix3 b (0 : Fin 1) q) := by
  rw [tail5_eq]
  exact reshape_at _ b q

/-- Entry `(b, q)` of the second result is entry `(b, 0, q)` of the second per-tile result array. -/
theorem tail6 (c : Dev nD) (b : Fin 2) (q : Fin 8192) :
    (Pipeline.afterTail₀ cfgs (dats m) 0 (V0 m) [hostOps1] c main_v6 : S2x8192.Idx → Elt F .f32) (ix2 b q)
      = ((dats m 0 c).arrAt 5 cfg0.N : S2x1x8192.Idx → Elt F .f32) (ix3 b (0 : Fin 1) q) := by
  rw [tail6_eq]
  exact reshape_at _ b q

/-- Entry `(b, q)` of the third result is entry `(b, 0, q)` of the accumulated result array. -/
theorem tail7 (c : Dev nD) (b : Fin 2) (q : Fin 8192) :
    (Pipeline.afterTail₀ cfgs (dats m) 0 (V0 m) [hostOps1] c main_v7 : S2x8192.Idx → Elt F .f32) (ix2 b q)
      = ((dats m 0 c).arrAt 6 cfg0.N : S2x1x8192.Idx → Elt F .f32) (ix3 b (0 : Fin 1) q) := by
  rw [tail7_eq]
  exact reshape_at _ b q

/-! ## The run, read at the three results

Every weakly fair execution ends with the three results at the reshapes of the three result arrays and the four
arguments unchanged: the results are written only by the reshapes after the region, the arguments by nothing. -/

/-- The first result after the run. -/
def R5 (c : Dev nD) : S2x8192.Idx → Elt F .f32 := fun j => Pipeline.afterTail₀ cfgs (dats m) 0 (V0 m) [hostOps1] c main_v5 j
/-- The second result after the run. -/
def R6 (c : Dev nD) : S2x8192.Idx → Elt F .f32 := fun j => Pipeline.afterTail₀ cfgs (dats m) 0 (V0 m) [hostOps1] c main_v6 j
/-- The third result after the run. -/
def R7 (c : Dev nD) : S2x8192.Idx → Elt F .f32 := fun j => Pipeline.afterTail₀ cfgs (dats m) 0 (V0 m) [hostOps1] c main_v7 j

/-- Entry `(b, q)` of the first result is entry `(b, 0, q)` of the first per-tile result array. -/
theorem R5_apply (c : Dev nD) (b : Fin 2) (q : Fin 8192) :
    R5 m c (ix2 b q) = ((dats m 0 c).arrAt 4 cfg0.N : S2x1x8192.Idx → Elt F .f32) (ix3 b (0 : Fin 1) q) := tail5 m c b q
/-- Entry `(b, q)` of the second result is entry `(b, 0, q)` of the second per-tile result array. -/
theorem R6_apply (c : Dev nD) (b : Fin 2) (q : Fin 8192) :
    R6 m c (ix2 b q) = ((dats m 0 c).arrAt 5 cfg0.N : S2x1x8192.Idx → Elt F .f32) (ix3 b (0 : Fin 1) q) := tail6 m c b q
/-- Entry `(b, q)` of the third result is entry `(b, 0, q)` of the accumulated result array. -/
theorem R7_apply (c : Dev nD) (b : Fin 2) (q : Fin 8192) :
    R7 m c (ix2 b q) = ((dats m 0 c).arrAt 6 cfg0.N : S2x1x8192.Idx → Elt F .f32) (ix3 b (0 : Fin 1) q) := tail7 m c b q

/-- The run: the three results as the reshapes leave them, the four arguments unchanged. -/
theorem run : θ_run defs (onTc (τ := τ) (main (F := F))) ⟨m, fun _ => 0, ρ⟩ fun r => ∀ c : Dev nD,
      r.2.mem ((c.tc : Thread nD τ).loc main_v5) = R5 m c
      ∧ r.2.mem ((c.tc : Thread nD τ).loc main_v6) = R6 m c
      ∧ r.2.mem ((c.tc : Thread nD τ).loc main_v7) = R7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).2 main_v5 (Pipeline.mem_restRefs_of main_v5 (by decide) (by decide)),
      (h c).2 main_v6 (Pipeline.mem_restRefs_of main_v6 (by decide) (by decide)),
      (h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.IO

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.BlockOps.lean ====
/-
  The vector operations the distance tile is built from, each read at one index over the extended reals:
  a minimum along one axis is the infimum over that axis; the product of a 3 × 2048 and a 3 × 1024 array contracted
  along their first axes is, at (p, k), the sum over the three coordinates; and the clamped squared-distance tile
  built from the squared norms, a run of 1024 columns and that product is, at (p, k),
  max ((‖x_p‖² + ‖y_{o+k}‖²) − 2·⟨x_p, y_{o+k}⟩) 0.
-/
import proofs.«114563_j5085241278567_2_alg».proof.KernelIdeal
import proofs.«114563_j5085241278567_2_alg».proof.Proof.ChamferSpec
import proofs.«114563_j5085241278567_2_alg».proof.Proof.LibKeptColumn
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Idealize.ShloMosaic Idealize.ShloMosaic.ValueIdx Idealize.ShloMosaic.KeptColumn Cert.Chamfer

/-! ## Minima -/

/-- A fold of `min` from the top element is the infimum. -/
theorem fold_min_top {ι : Type} (s : Finset ι) (f : ι → EReal) : s.fold min ⊤ f = s.inf f :=
  eq_of_forall_le_iff fun c => by rw [Finset.le_fold_min, Finset.le_inf_iff]; simp

/-- A minimum along one axis, from the +∞ word, read at an index: the infimum over that axis's coordinates. -/
theorem minRed_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf (src ∘ h.lift j) := by
  rw [multiReduction_minimumf_eq_fold, h.fold_filter_drop_single]
  show Finset.fold min Cert.Chamfer.inf _ _ = _
  rw [inf_eq_top, fold_min_top]

section
variable [Facts₀]
open Facts₀

/-! ## The product contracted along both first axes -/

local notation "DD" => dot_S3x2048_S3x1024_S2048x1024_0_0_1_1_n_n

theorem contr_pos : 0 < (DD).contr.rank := by rw [DotDims.rank_contr]; exact Nat.one_pos

theorem lhs0 (i : S2048x1024.Idx) (q : (DD).contr.Idx) : ((DD).lhsIdx i q 0).val = (q ⟨0, contr_pos⟩).val :=
  (DD).lhsIdx_val_of_single rfl i q
theorem lhs1 (i : S2048x1024.Idx) (q : (DD).contr.Idx) : ((DD).lhsIdx i q 1).val = (i 0).val := by
  unfold DotDims.lhsIdx
  rw [dif_neg (show ¬(1 : Fin S3x2048.rank) ∈ (DD).lhsBatch from List.not_mem_nil),
    dif_pos (show (1 : Fin S3x2048.rank) ∈ (DD).lhsNonContracting from List.mem_singleton.mpr rfl)]
  rfl
theorem rhs0 (i : S2048x1024.Idx) (q : (DD).contr.Idx) : ((DD).rhsIdx i q 0).val = (q ⟨0, contr_pos⟩).val :=
  (DD).rhsIdx_val_of_single rfl i q
theorem rhs1 (i : S2048x1024.Idx) (q : (DD).contr.Idx) : ((DD).rhsIdx i q 1).val = (i 1).val := by
  unfold DotDims.rhsIdx
  rw [dif_neg (show ¬(1 : Fin S3x1024.rank) ∈ (DD).rhsBatch from List.not_mem_nil),
    dif_pos (show (1 : Fin S3x1024.rank) ∈ (DD).rhsNonContracting from List.mem_singleton.mpr rfl)]
  rfl

/-- The product of `l` (3 × 2048) and `r` (3 × 1024) contracted along the first axes, into the zero accumulator,
    at `(p, k)`: the sum over `d` of `l (d, p) · r (d, k)`. -/
theorem dot_apply (prec : Option ContractPrecision) (l : FVec Ideal S3x2048 .f32) (r : FVec Ideal S3x1024 .f32)
    (p : Fin 2048) (k : Fin 1024) :
    matmul (DD) prec l r (constant S2048x1024 .f32 0x00000000#32) (ix2 p k) = ∑ d : Fin 3, l (ix2 d p) * r (ix2 d k) := by
  refine (Ideal.matmul_constant_zero_apply (DD) prec l r (ix2 p k)).trans ?_
  rw [← Equiv.sum_comp (ValueIdx.contrEquiv1 (DD) 3 rfl rfl).symm]
  refine Finset.sum_congr rfl fun d _ => ?_
  have hk := ValueIdx.contrEquiv1_symm_val (DD) 3 rfl rfl d
  have el : (DD).lhsIdx (ix2 p k) ((ValueIdx.contrEquiv1 (DD) 3 rfl rfl).symm d) = ix2 d p := funext fun a => Fin.ext (by
    match a with
    | ⟨0, _⟩ => exact (lhs0 _ _).trans hk
    | ⟨1, _⟩ => exact lhs1 _ _)
  have er : (DD).rhsIdx (ix2 p k) ((ValueIdx.contrEquiv1 (DD) 3 rfl rfl).symm d) = ix2 d k := funext fun a => Fin.ext (by
    match a with
    | ⟨0, _⟩ => exact (rhs0 _ _).trans hk
    | ⟨1, _⟩ => exact rhs1 _ _)
  rw [el, er]

/-! ## The distance tile -/

/-- The clamped squared-distance tile of 2048 predicted points against the run of 1024 ground-truth points that starts
    at `o`, from the coordinates `v10` and `v3` and the squared norms `v12` and `v14`. -/
def tile (o : Nat) (h1 : S3x8192.Slices ![0, o] S3x1024) (h2 : S8192.Slices ![o] S1024)
    (v3 : FVec Ideal S3x8192 .f32) (v10 : FVec Ideal S3x2048 .f32) (v12 : FVec Ideal S2048 .f32) (v14 : FVec Ideal S8192 .f32) :
    FVec Ideal S2048x1024 .f32 :=
  maximumf (subf (addf (broadcastTo S2048x1024 (shapeCast S2048x1 v12 shapeCasts_S2048_S2048x1) broadcasts_S2048x1_S2048x1024)
        (broadcastTo S2048x1024 (shapeCast S1x1024 (extractStridedSlice S1024 ![o] v14 h2) shapeCasts_S1024_S1x1024) broadcasts_S1x1024_S2048x1024))
      (mulf (broadcast S2048x1024 (Scalar.ofBits .f32 0x40000000#32))
        (matmul (DD) (some .fp32) v10 (extractStridedSlice S3x1024 ![0, o] v3 h1) (constant S2048x1024 .f32 0x00000000#32))))
    (broadcast S2048x1024 (Scalar.ofBits .f32 0x00000000#32))

theorem tile_apply (o : Nat) (h1 : S3x8192.Slices ![0, o] S3x1024) (h2 : S8192.Slices ![o] S1024)
    (v3 : FVec Ideal S3x8192 .f32) (v10 : FVec Ideal S3x2048 .f32) (v12 : FVec Ideal S2048 .f32) (v14 : FVec Ideal S8192 .f32)
    (p : Fin 2048) (k : Fin 1024) (g : Fin 8192) (hg : g.val = o + k.val) :
    tile o h1 h2 v3 v10 v12 v14 (ix2 p k)
      = max ((v12 (ix1 p) + v14 (ix1 g)) - two * ∑ d : Fin 3, v10 (ix2 d p) * v3 (ix2 d g)) zero := by
  unfold tile
  rw [maximumf_apply, subf_apply, addf_apply, mulf_apply, broadcast_apply, broadcast_apply,
    broadcastTo_a1_ab_apply, shapeCast_a_a1_apply, broadcastTo_1b_ab_apply, shapeCast_a_1a_apply, dot_apply]
  have e1 : extractStridedSlice S1024 ![o] v14 h2 (ix1 k) = v14 (ix1 g) :=
    extractStridedSlice_apply _ _ _ _ _ (fun ax => by match ax with | ⟨0, _⟩ => exact hg)
  have e2 : ∀ d : Fin 3, extractStridedSlice S3x1024 ![0, o] v3 h1 (ix2 d k) = v3 (ix2 d g) := fun d =>
    slice2_axis1_apply o v3 h1 d k g hg
  rw [e1]
  simp only [e2]
  rfl

end

end Cert.KernelIdeal.Block

end
-- ==== Proof.BlockValue.lean ====
/-
  What one grid point computes from its four input blocks, over the extended reals, index by index.

  The blocks: `x0` the predicted points' coordinates (1 × 3 × 2048), `x1` all ground-truth coordinates of the batch
  (1 × 3 × 8192), `x2` the mask and `x3` the confidence of the 2048 predicted points.  The body forms the masked
  coordinates, the squared norms, then eight 2048 × 1024 tiles of clamped squared distances; a row's minimum over all
  eight tiles is the point's distance to its nearest ground-truth point, a column's minimum is folded into the running
  minimum the scratch buffer carries from grid point to grid point.
-/
import proofs.«114563_j5085241278567_2_alg».proof.Proof.Gen.KernelIdeal.Skeleton
import proofs.«114563_j5085241278567_2_alg».proof.Proof.BlockOps

noncomputable section

open scoped BigOperators

namespace Cert.KernelIdeal.Block

open Cert.KernelIdeal Cert.KernelIdeal.Gen Idealize.ShloMosaic Idealize.ShloMosaic.ValueIdx Idealize.ShloMosaic.KeptColumn Cert.Chamfer

variable (x0 : Vec Ideal S1x3x2048 .f32) (x1 : Vec Ideal S1x3x8192 .f32) (x2 x3 : Vec Ideal S1x1x2048 .f32)

/-! ## The block-local quantities -/

/-- Coordinate `d` of predicted point `p` of the block, scaled by the point's mask. -/
def bxm (p : Fin 2048) (d : Fin 3) : EReal := x0 (ix3 (0 : Fin 1) d p) * x2 (ix3 (0 : Fin 1) (0 : Fin 1) p)
/-- Its squared norm. -/
def bxsq (p : Fin 2048) : EReal := ∑ d : Fin 3, bxm x0 x2 p d * bxm x0 x2 p d
/-- Ground-truth point `g`'s squared norm. -/
def bysq (g : Fin 8192) : EReal := ∑ d : Fin 3, x1 (ix3 (0 : Fin 1) d g) * x1 (ix3 (0 : Fin 1) d g)
/-- Their inner product. -/
def bdot (p : Fin 2048) (g : Fin 8192) : EReal := ∑ d : Fin 3, bxm x0 x2 p d * x1 (ix3 (0 : Fin 1) d g)
/-- The clamped squared distance between predicted point `p` of the block and ground-truth point `g`. -/
def bdist (p : Fin 2048) (g : Fin 8192) : EReal :=
  max ((bxsq x0 x2 p + bysq x1 g) - two * bdot x0 x1 x2 p g) zero

/-! ## Casts of the blocks -/

/-- A 1 × 1 × a block cast to a vector reads, at `i`, the block at (0, 0, i). -/
theorem cast_11a_a {a : ℕ} {α : Type} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A vector cast to a 1 × 1 × a block reads, at (u, v, i), the vector at `i`. -/
theorem cast_a_11a {a : ℕ} {α : Type} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

theorem pay6_apply (d : Fin 3) (g : Fin 8192) : k0_pay6 x1 (ix2 d g) = x1 (ix3 (0 : Fin 1) d g) := by
  unfold k0_pay6
  exact shapeCast_1ab_ab_apply x1 _ d g

theorem pay7_apply (p : Fin 2048) : k0_pay7 x2 (ix1 p) = x2 (ix3 (0 : Fin 1) (0 : Fin 1) p) := by
  unfold k0_pay7
  exact cast_11a_a x2 _ p

theorem pay8_apply (p : Fin 2048) : k0_pay8 x3 (ix1 p) = x3 (ix3 (0 : Fin 1) (0 : Fin 1) p) := by
  unfold k0_pay8
  exact cast_11a_a x3 _ p

theorem pay9_apply (d : Fin 3) (p : Fin 2048) : k0_pay9 x0 x2 (ix2 d p) = bxm x0 x2 p d := by
  unfold k0_pay9 bxm
  show mulf _ _ (ix2 d p) = _
  rw [mulf_apply, shapeCast_1ab_ab_apply, broadcastTo_1b_ab_apply, shapeCast_a_1a_apply, pay7_apply]

theorem pay10_apply (p : Fin 2048) : k0_pay10 x0 x2 (ix1 p) = bxsq x0 x2 p := by
  unfold k0_pay10 bxsq
  refine (Ideal.multiReduction_add_single _ _ Gen.reduces_S3x2048_S2048 _ _ (ix1 p)).trans ?_
  show ∑ d : Fin 3, mulf (k0_pay9 x0 x2) (k0_pay9 x0 x2) (ix2 d p) = _
  refine Finset.sum_congr rfl fun d _ => ?_
  rw [mulf_apply, pay9_apply]

theorem pay11_apply (g : Fin 8192) : k0_pay11 x1 (ix1 g) = bysq x1 g := by
  unfold k0_pay11 bysq
  refine (Ideal.multiReduction_add_single _ _ Gen.reduces_S3x8192_S8192 _ _ (ix1 g)).trans ?_
  show ∑ d : Fin 3, mulf (k0_pay6 x1) (k0_pay6 x1) (ix2 d g) = _
  refine Finset.sum_congr rfl fun d _ => ?_
  rw [mulf_apply, pay6_apply]

/-! ## The eight tiles -/

/-- Any tile built from the block's own coordinates and norms reads, at (p, k), the clamped squared distance to the
    ground-truth point `o + k`. -/
theorem tile_block (o : Nat) (h1 : S3x8192.Slices ![0, o] S3x1024) (h2 : S8192.Slices ![o] S1024)
    (p : Fin 2048) (k : Fin 1024) (g : Fin 8192) (hg : g.val = o + k.val) :
    tile o h1 h2 (k0_pay6 x1) (k0_pay9 x0 x2) (k0_pay10 x0 x2) (k0_pay11 x1) (ix2 p k) = bdist x0 x1 x2 p g := by
  rw [tile_apply o h1 h2 _ _ _ _ p k g hg, pay10_apply, pay11_apply]
  unfold bdist bdot
  simp only [pay9_apply, pay6_apply]

/-- The row minimum of a tile. -/
def rowm (T : FVec Ideal S2048x1024 .f32) : FVec Ideal S2048 .f32 :=
  multiReduction .minimumf [1] S2048 T 0x7F800000#32 Gen.reduces_S2048x1024_S2048 (.inl rfl) rfl
/-- The column minimum of a tile. -/
def colm (T : FVec Ideal S2048x1024 .f32) : FVec Ideal S1024 .f32 :=
  multiReduction .minimumf [0] S1024 T 0x7F800000#32 Gen.reduces_S2048x1024_S1024 (.inl rfl) rfl

theorem lift_row (h : S2048x1024.Reduces [1] S2048) (p : Fin 2048) (k : Fin 1024) : h.lift (ix1 p) k = ix2 p k :=
  funext fun c => Fin.ext (by match c with | ⟨0, _⟩ => rfl | ⟨1, _⟩ => rfl)

theorem lift_col (h : S2048x1024.Reduces [0] S1024) (k : Fin 1024) (p : Fin 2048) : h.lift (ix1 k) p = ix2 p k :=
  funext fun c => Fin.ext (by match c with | ⟨0, _⟩ => rfl | ⟨1, _⟩ => rfl)

theorem rowm_apply (T : FVec Ideal S2048x1024 .f32) (p : Fin 2048) :
    rowm T (ix1 p) = Finset.univ.inf fun k : Fin 1024 => T (ix2 p k) := by
  unfold rowm
  refine (minRed_single T Gen.reduces_S2048x1024_S2048 _ _ (ix1 p)).trans ?_
  show (Finset.univ : Finset (Fin 1024)).inf (fun k => T (Gen.reduces_S2048x1024_S2048.lift (ix1 p) k)) = _
  simp only [lift_row]

theorem colm_apply (T : FVec Ideal S2048x1024 .f32) (k : Fin 1024) :
    colm T (ix1 k) = Finset.univ.inf fun p : Fin 2048 => T (ix2 p k) := by
  unfold colm
  refine (minRed_single T Gen.reduces_S2048x1024_S1024 _ _ (ix1 k)).trans ?_
  show (Finset.univ : Finset (Fin 2048)).inf (fun p => T (Gen.reduces_S2048x1024_S1024.lift (ix1 k) p)) = _
  simp only [lift_col]

/-- The running minimum over a run of 1024 columns folded with a tile's column minima. -/
def upd (T : FVec Ideal S2048x1024 .f32) (ld : Vec Ideal S1x1x1024 .f32) : FVec Ideal S1x1x1024 .f32 :=
  shapeCast S1x1x1024 (minimumf (shapeCast S1024 ld Gen.shapeCasts_S1x1x1024_S1024) (colm T)) Gen.shapeCasts_S1024_S1x1x1024

theorem upd_apply (T : FVec Ideal S2048x1024 .f32) (ld : Vec Ideal S1x1x1024 .f32) (u v : Fin 1) (k : Fin 1024) :
    upd T ld (ix3 u v k) = min (ld (ix3 (0 : Fin 1) (0 : Fin 1) k)) (Finset.univ.inf fun p : Fin 2048 => T (ix2 p k)) := by
  unfold upd
  rw [cast_a_11a, minimumf_apply, cast_11a_a, colm_apply]

end Cert.KernelIdeal.Block

end
-- ==== Proof.BlockAcc.lean ====
/-
  The eight tiles of a grid point, their row and column minima, and the row minimum accumulated over them:
  a predicted point's distance to the nearest of all 8192 ground-truth points.
-/
import proofs.«114563_j5085241278567_2_alg».proof.Proof.BlockValue

noncomputable section

open scoped BigOperators

namespace Cert.KernelIdeal.Block

open Cert.KernelIdeal Cert.KernelIdeal.Gen Idealize.ShloMosaic Idealize.ShloMosaic.ValueIdx Idealize.ShloMosaic.KeptColumn Cert.Chamfer

variable (x0 : Vec Ideal S1x3x2048 .f32) (x1 : Vec Ideal S1x3x8192 .f32) (x2 x3 : Vec Ideal S1x1x2048 .f32)

/-! ## The tiles of this block, their minima, and the results -/

/-- The tile against the run of ground-truth points that starts at `o`. -/
def tl (o : Nat) (h1 : S3x8192.Slices ![0, o] S3x1024) (h2 : S8192.Slices ![o] S1024) : FVec Ideal S2048x1024 .f32 :=
  tile o h1 h2 (k0_pay6 x1) (k0_pay9 x0 x2) (k0_pay10 x0 x2) (k0_pay11 x1)

/-- A row's minimum over tile `c`: the infimum of the distances over run `c`. -/
theorem rowm_tl (o : Nat) (h1 : S3x8192.Slices ![0, o] S3x1024) (h2 : S8192.Slices ![o] S1024) (c : Fin 8)
    (hc : o = 1024 * c.val) (p : Fin 2048) :
    rowm (tl x0 x1 x2 o h1 h2) (ix1 p) = inf8 (fun g => bdist x0 x1 x2 p g) c := by
  rw [rowm_apply]
  unfold inf8 tl
  exact Finset.inf_congr rfl fun k _ => tile_block x0 x1 x2 o h1 h2 p k (run8 c k) (by rw [run8_val, hc])

/-- A column's minimum over tile `c`: the infimum over the block's predicted points. -/
theorem colm_tl (o : Nat) (h1 : S3x8192.Slices ![0, o] S3x1024) (h2 : S8192.Slices ![o] S1024) (c : Fin 8)
    (hc : o = 1024 * c.val) (k : Fin 1024) :
    (Finset.univ.inf fun p : Fin 2048 => tl x0 x1 x2 o h1 h2 (ix2 p k))
      = Finset.univ.inf fun p : Fin 2048 => bdist x0 x1 x2 p (run8 c k) := by
  unfold tl
  exact Finset.inf_congr rfl fun p _ => tile_block x0 x1 x2 o h1 h2 p k (run8 c k) (by rw [run8_val, hc])

/-- The row minimum accumulated over the eight tiles, as the body's values compose it. -/
def rowAcc {F : FTy → Type} [FloatOps F] (x0 : Vec F S1x3x2048 .f32) (x1 : Vec F S1x3x8192 .f32) (x2 : Vec F S1x1x2048 .f32) :
    FVec F S2048 .f32 :=
  k0_pay38 (k0_pay6 x1) (k0_pay9 x0 x2) (k0_pay10 x0 x2) (k0_pay11 x1)
    (k0_pay32 (k0_pay6 x1) (k0_pay9 x0 x2) (k0_pay10 x0 x2) (k0_pay11 x1)
      (k0_pay24 (k0_pay6 x1) (k0_pay9 x0 x2) (k0_pay10 x0 x2) (k0_pay11 x1)
        (k0_pay18 (k0_pay6 x1) (k0_pay9 x0 x2) (k0_pay10 x0 x2) (k0_pay11 x1) (k0_pay14 x0 x1 x2))
        (k0_pay20 (k0_pay6 x1) (k0_pay9 x0 x2) (k0_pay10 x0 x2) (k0_pay11 x1)))
      (k0_pay26 (k0_pay11 x1)) (k0_pay27 (k0_pay6 x1) (k0_pay9 x0 x2)) (k0_pay28 (k0_pay10 x0 x2)))

/-- The accumulated row minimum is the left fold, from +∞, of the eight tiles' row minima. -/
theorem rowAcc_eq :
    rowAcc (F := Ideal) x0 x1 x2 = minimumf (minimumf (minimumf (minimumf (minimumf (minimumf (minimumf (minimumf
      (broadcast S2048 (Scalar.ofBits (F := Ideal) .f32 0x7F800000#32))
      (rowm (tl x0 x1 x2 0 Gen.slices_S3x8192_o0_0_S3x1024 Gen.slices_S8192_o0_S1024)))
      (rowm (tl x0 x1 x2 1024 Gen.slices_S3x8192_o0_1024_S3x1024 Gen.slices_S8192_o1024_S1024)))
      (rowm (tl x0 x1 x2 2048 Gen.slices_S3x8192_o0_2048_S3x1024 Gen.slices_S8192_o2048_S1024)))
      (rowm (tl x0 x1 x2 3072 Gen.slices_S3x8192_o0_3072_S3x1024 Gen.slices_S8192_o3072_S1024)))
      (rowm (tl x0 x1 x2 4096 Gen.slices_S3x8192_o0_4096_S3x1024 Gen.slices_S8192_o4096_S1024)))
      (rowm (tl x0 x1 x2 5120 Gen.slices_S3x8192_o0_5120_S3x1024 Gen.slices_S8192_o5120_S1024)))
      (rowm (tl x0 x1 x2 6144 Gen.slices_S3x8192_o0_6144_S3x1024 Gen.slices_S8192_o6144_S1024)))
      (rowm (tl x0 x1 x2 7168 Gen.slices_S3x8192_o0_7168_S3x1024 Gen.slices_S8192_o7168_S1024)) := by
  unfold rowAcc k0_pay38 k0_pay32 k0_pay24 k0_pay18 k0_pay14 k0_pay37 k0_pay35 k0_pay31 k0_pay29 k0_pay28 k0_pay27 k0_pay26
    k0_pay23 k0_pay21 k0_pay20 k0_pay17 k0_pay13 rowm tl tile
  with_reducible rfl

/-- Each predicted point's distance to its nearest ground-truth point: the eight row minima folded from +∞. -/
theorem rowAcc_apply (p : Fin 2048) :
    rowAcc (F := Ideal) x0 x1 x2 (ix1 p) = Finset.univ.inf fun g : Fin 8192 => bdist x0 x1 x2 p g := by
  rw [rowAcc_eq]
  rw [minimumf_apply, minimumf_apply, minimumf_apply, minimumf_apply, minimumf_apply, minimumf_apply, minimumf_apply,
    minimumf_apply, broadcast_apply]
  rw [rowm_tl x0 x1 x2 0 _ _ 0 rfl, rowm_tl x0 x1 x2 1024 _ _ 1 rfl, rowm_tl x0 x1 x2 2048 _ _ 2 rfl,
    rowm_tl x0 x1 x2 3072 _ _ 3 rfl, rowm_tl x0 x1 x2 4096 _ _ 4 rfl, rowm_tl x0 x1 x2 5120 _ _ 5 rfl,
    rowm_tl x0 x1 x2 6144 _ _ 6 rfl, rowm_tl x0 x1 x2 7168 _ _ 7 rfl]
  show min (min (min (min (min (min (min (min Cert.Chamfer.inf _) _) _) _) _) _) _) _ = _
  rw [inf_eq_top]
  exact fold_inf8 _

end Cert.KernelIdeal.Block

end
-- ==== Proof.PointBlocks.lean ====
/-
  What each case of the body leaves in the two per-point output blocks, as one term of the point's input blocks:
  whichever of the three control cases a grid point falls in (first tile of a batch, a middle tile, the last tile),
  the masked loss block and the confidence-weighted loss block are the same functions of the accumulated row minimum.
-/
import proofs.«114563_j5085241278567_2_alg».proof.Proof.Gen.KernelIdeal.Frame
import proofs.«114563_j5085241278567_2_alg».proof.Proof.BlockAcc
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Block

variable {F : FTy → Type} [FloatOps F]

/-- The three zero offsets of a whole-buffer access, as a function. -/
theorem offsets_zero : (![0, 0, 0] : Fin 3 → Nat) = fun _ => 0 := funext fun a => by fin_cases a <;> rfl

theorem out4_A (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : cond0_0 i) (hc1 : ¬cond0_1 i) (x0 : Vec F S1x3x2048 .f32) (x1 : Vec F S1x3x8192 .f32) (x2 : Vec F S1x1x2048 .f32) (x3 : Vec F S1x1x2048 .f32) :
    out0_A_4 c i arg2 harg2 arg3 harg3 arg4 harg4 arg5 harg5 arg6 harg6 arg7 harg7 arg8 harg8 arg9 harg9 hc0 hc1 x0 x1 x2 x3 = k0_pay4 (k0_pay7 x2) (k0_pay8 x3) (rowAcc x0 x1 x2) := by
  unfold out0_A_4
  rw [View.read_writes_eq_canon _ _ _ (cover0_A_4 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

theorem out5_A (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : cond0_0 i) (hc1 : ¬cond0_1 i) (x0 : Vec F S1x3x2048 .f32) (x1 : Vec F S1x3x8192 .f32) (x2 : Vec F S1x1x2048 .f32) (x3 : Vec F S1x1x2048 .f32) :
    out0_A_5 c i arg2 harg2 arg3 harg3 arg4 harg4 arg5 harg5 arg6 harg6 arg7 harg7 arg8 harg8 arg9 harg9 hc0 hc1 x0 x1 x2 x3 = k0_pay3 (k0_pay7 x2) (rowAcc x0 x1 x2) := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

theorem out4_B (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : ¬cond0_1 i) (x0 : Vec F S1x3x2048 .f32) (x1 : Vec F S1x3x8192 .f32) (x2 : Vec F S1x1x2048 .f32) (x3 : Vec F S1x1x2048 .f32) (xs0 : Vec F S1x1x8192 .f32) :
    out0_B_4 c i arg2 harg2 arg3 harg3 arg4 harg4 arg5 harg5 arg6 harg6 arg7 harg7 arg8 harg8 arg9 harg9 hc0 hc1 x0 x1 x2 x3 xs0 = k0_pay4 (k0_pay7 x2) (k0_pay8 x3) (rowAcc x0 x1 x2) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

theorem out5_B (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : ¬cond0_1 i) (x0 : Vec F S1x3x2048 .f32) (x1 : Vec F S1x3x8192 .f32) (x2 : Vec F S1x1x2048 .f32) (x3 : Vec F S1x1x2048 .f32) (xs0 : Vec F S1x1x8192 .f32) :
    out0_B_5 c i arg2 harg2 arg3 harg3 arg4 harg4 arg5 harg5 arg6 harg6 arg7 harg7 arg8 harg8 arg9 harg9 hc0 hc1 x0 x1 x2 x3 xs0 = k0_pay3 (k0_pay7 x2) (rowAcc x0 x1 x2) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

theorem out4_C (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : cond0_1 i) (x0 : Vec F S1x3x2048 .f32) (x1 : Vec F S1x3x8192 .f32) (x2 : Vec F S1x1x2048 .f32) (x3 : Vec F S1x1x2048 .f32) (xs0 : Vec F S1x1x8192 .f32) :
    out0_C_4 c i arg2 harg2 arg3 harg3 arg4 harg4 arg5 harg5 arg6 harg6 arg7 harg7 arg8 harg8 arg9 harg9 hc0 hc1 x0 x1 x2 x3 xs0 = k0_pay4 (k0_pay7 x2) (k0_pay8 x3) (rowAcc x0 x1 x2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

theorem out5_C (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : cond0_1 i) (x0 : Vec F S1x3x2048 .f32) (x1 : Vec F S1x3x8192 .f32) (x2 : Vec F S1x1x2048 .f32) (x3 : Vec F S1x1x2048 .f32) (xs0 : Vec F S1x1x8192 .f32) :
    out0_C_5 c i arg2 harg2 arg3 harg3 arg4 harg4 arg5 harg5 arg6 harg6 arg7 harg7 arg8 harg8 arg9 harg9 hc0 hc1 x0 x1 x2 x3 xs0 = k0_pay3 (k0_pay7 x2) (rowAcc x0 x1 x2) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero offsets_zero]
  simp only [View.readAt_eq_ld, harg2.read_unread, harg3.read_unread, harg4.read_unread, harg5.read_unread,
    View.ld_unit_zero (S := S1x3x2048) offsets_zero, View.ld_unit_zero (S := S1x3x8192) offsets_zero, View.ld_unit_zero (S := S1x1x2048) offsets_zero]
  rfl

end Cert.KernelIdeal.Pieces

end
-- ==== Proof.BlockOut.lean ====
/-
  The three result blocks of a grid point read at an index: the masked loss and the confidence-weighted loss from
  the accumulated row minimum, the ground-truth loss from the carried column minimum.
-/
import proofs.«114563_j5085241278567_2_alg».proof.Proof.BlockValue

noncomputable section

open scoped BigOperators

namespace Cert.KernelIdeal.Block

open Cert.KernelIdeal Cert.KernelIdeal.Gen Idealize.ShloMosaic Idealize.ShloMosaic.ValueIdx Idealize.ShloMosaic.KeptColumn Cert.Chamfer

variable (x0 : Vec Ideal S1x3x2048 .f32) (x1 : Vec Ideal S1x3x8192 .f32) (x2 x3 : Vec Ideal S1x1x2048 .f32)

/-- The masked loss block from the accumulated row minimum. -/
theorem pay3_apply (v5 v187 : FVec Ideal S2048 .f32) (u v : Fin 1) (p : Fin 2048) :
    k0_pay3 v5 v187 (ix3 u v p) = (Ideal.sqrt (v187 (ix1 p)) * hundred) * v5 (ix1 p) := by
  unfold k0_pay3 k0_pay2
  rw [cast_a_11a, mulf_apply, mulf_apply, broadcast_apply]
  rfl

/-- The confidence-weighted loss block. -/
theorem pay4_apply (v5 v7 v187 : FVec Ideal S2048 .f32) (u v : Fin 1) (p : Fin 2048) :
    k0_pay4 v5 v7 v187 (ix3 u v p)
      = ((Ideal.sqrt (v187 (ix1 p)) * hundred) * v7 (ix1 p) - one * Ideal.log (v7 (ix1 p))) * v5 (ix1 p) := by
  unfold k0_pay4 k0_pay2
  rw [cast_a_11a, mulf_apply, subf_apply, mulf_apply, mulf_apply, mulf_apply, broadcast_apply, broadcast_apply]
  rfl

/-- The ground-truth loss block from the carried minimum. -/
theorem pay5_apply (v214 : Vec Ideal S1x1x8192 .f32) (u v : Fin 1) (g : Fin 8192) :
    k0_pay5 v214 (ix3 u v g) = Ideal.sqrt (max (v214 (ix3 (0 : Fin 1) (0 : Fin 1) g)) zero) * hundred := by
  unfold k0_pay5
  rw [cast_a_11a, mulf_apply, broadcast_apply]
  have e : (maximumf (shapeCast S8192 v214 Gen.shapeCasts_S1x1x8192_S8192)
      (broadcast S8192 (Scalar.ofBits (F := Ideal) .f32 0x00000000#32)) : FVec Ideal S8192 .f32) (ix1 g)
      = max (v214 (ix3 (0 : Fin 1) (0 : Fin 1) g)) zero := by
    rw [maximumf_apply, cast_11a_a, broadcast_apply]; rfl
  exact congrArg (fun z => Ideal.sqrt z * hundred) e

end Cert.KernelIdeal.Block

end
-- ==== Proof.ResetLoads.lean ====
/-
  The scratch buffer at the first tile of a batch, before the eight runs are folded in: it is reset to +∞, and each
  run's load — made after the reset and after the earlier runs' updates, all of which lie before it — reads +∞.
-/
import proofs.«114563_j5085241278567_2_alg».proof.Proof.Gen.KernelIdeal.Frame
import Idealize.ShloMosaic.Lib.Pipeline.Value

set_option maxRecDepth 16384

noncomputable section

open Idealize.ShloMosaic Idealize.ShloMosaic.TcCoe Idealize.SL.Sem

namespace Cert.KernelIdeal.Reset

open Cert.KernelIdeal Cert.KernelIdeal.Gen

variable {F : FTy → Type} [FloatOps F]

/-- The three zero offsets of a whole-buffer access, as a function. -/
theorem offsets_zero : (![0, 0, 0] : Fin 3 → Nat) = fun _ => 0 := funext fun a => by fin_cases a <;> rfl

/-- After the reset alone, any load reads the +∞ splat. -/
theorem rd1 (arg9 : Memref sig .tc .vmem S1x1x8192 .f32) (B : LoadRect S1x1x8192) :
    arg9.view.readCov (kernelRun0_A.sl.HS0_1 (F := F)) B = fun j => k0_pay12 (B.idx j) := by
  unfold kernelRun0_A.sl.HS0_1
  rw [View.readCov_eq_canon']
  funext j
  rw [View.canon_unit_zero offsets_zero]

/-- With 1 run updated, a load of a later run still reads the +∞ splat: the updated runs lie before it. -/
theorem rd2 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 1024 ≤ o) :
    arg9.view.readCov (kernelRun0_A.sl.HS0_2 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_2
  refine (View.readCov_cons_of_disjoint _ _ _ _ ?_).trans (rd1 arg9 _)
  exact Rect.unit_disjoint (s := S1x1x8192) (off := ![0, 0, 0]) (size := S1x1x1024.size) (off' := ![0, 0, o]) (size' := S1x1x1024.size)
    (inb := inb_S1x1x8192_S1x1x1024_0_0_0) (inb' := inb) 2
    (Or.inl (show 0 + 1024 ≤ o from ho))

/-- With 2 runs updated, a load of a later run still reads the +∞ splat: the updated runs lie before it. -/
theorem rd3 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 2048 ≤ o) :
    arg9.view.readCov (kernelRun0_A.sl.HS0_3 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_3
  refine (View.readCov_cons_of_disjoint _ _ _ _ ?_).trans (rd2 c arg2 harg2 arg3 harg3 arg4 harg4 arg9 x0 x1 x2 o inb (by omega))
  exact Rect.unit_disjoint (s := S1x1x8192) (off := ![0, 0, 1024]) (size := S1x1x1024.size) (off' := ![0, 0, o]) (size' := S1x1x1024.size)
    (inb := inb_S1x1x8192_S1x1x1024_0_0_1024) (inb' := inb) 2
    (Or.inl (show 1024 + 1024 ≤ o from ho))

/-- With 3 runs updated, a load of a later run still reads the +∞ splat: the updated runs lie before it. -/
theorem rd4 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 3072 ≤ o) :
    arg9.view.readCov (kernelRun0_A.sl.HS0_4 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_4
  refine (View.readCov_cons_of_disjoint _ _ _ _ ?_).trans (rd3 c arg2 harg2 arg3 harg3 arg4 harg4 arg9 x0 x1 x2 o inb (by omega))
  exact Rect.unit_disjoint (s := S1x1x8192) (off := ![0, 0, 2048]) (size := S1x1x1024.size) (off' := ![0, 0, o]) (size' := S1x1x1024.size)
    (inb := inb_S1x1x8192_S1x1x1024_0_0_2048) (inb' := inb) 2
    (Or.inl (show 2048 + 1024 ≤ o from ho))

/-- With 4 runs updated, a load of a later run still reads the +∞ splat: the updated runs lie before it. -/
theorem rd5 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 4096 ≤ o) :
    arg9.view.readCov (kernelRun0_A.sl.HS0_5 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_5
  refine (View.readCov_cons_of_disjoint _ _ _ _ ?_).trans (rd4 c arg2 harg2 arg3 harg3 arg4 harg4 arg9 x0 x1 x2 o inb (by omega))
  exact Rect.unit_disjoint (s := S1x1x8192) (off := ![0, 0, 3072]) (size := S1x1x1024.size) (off' := ![0, 0, o]) (size' := S1x1x1024.size)
    (inb := inb_S1x1x8192_S1x1x1024_0_0_3072) (inb' := inb) 2
    (Or.inl (show 3072 + 1024 ≤ o from ho))

/-- With 5 runs updated, a load of a later run still reads the +∞ splat: the updated runs lie before it. -/
theorem rd6 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 5120 ≤ o) :
    arg9.view.readCov (kernelRun0_A.sl.HS0_6 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_6
  refine (View.readCov_cons_of_disjoint _ _ _ _ ?_).trans (rd5 c arg2 harg2 arg3 harg3 arg4 harg4 arg9 x0 x1 x2 o inb (by omega))
  exact Rect.unit_disjoint (s := S1x1x8192) (off := ![0, 0, 4096]) (size := S1x1x1024.size) (off' := ![0, 0, o]) (size' := S1x1x1024.size)
    (inb := inb_S1x1x8192_S1x1x1024_0_0_4096) (inb' := inb) 2
    (Or.inl (show 4096 + 1024 ≤ o from ho))

/-- With 6 runs updated, a load of a later run still reads the +∞ splat: the updated runs lie before it. -/
theorem rd7 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 6144 ≤ o) :
    arg9.view.readCov (kernelRun0_A.sl.HS0_7 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_7
  refine (View.readCov_cons_of_disjoint _ _ _ _ ?_).trans (rd6 c arg2 harg2 arg3 harg3 arg4 harg4 arg9 x0 x1 x2 o inb (by omega))
  exact Rect.unit_disjoint (s := S1x1x8192) (off := ![0, 0, 5120]) (size := S1x1x1024.size) (off' := ![0, 0, o]) (size' := S1x1x1024.size)
    (inb := inb_S1x1x8192_S1x1x1024_0_0_5120) (inb' := inb) 2
    (Or.inl (show 5120 + 1024 ≤ o from ho))

/-- With 7 runs updated, a load of a later run still reads the +∞ splat: the updated runs lie before it. -/
theorem rd8 (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) (o : Nat)
    (inb : ∀ a, (![0, 0, o] : Fin 3 → Nat) a + S1x1x1024.size a ≤ S1x1x8192.size a) (ho : 7168 ≤ o) :
    arg9.view.readCov (kernelRun0_A.sl.HS0_8 c arg2 harg2 arg3 harg3 arg4 harg4 arg9 x0 x1 x2) (Rect.unit (s := S1x1x8192) ![0, 0, o] S1x1x1024.size inb).toLoadRect
      = fun j => k0_pay12 ((Rect.unit (s := S1x1x8192) ![0, 0, o] S1x1x1024.size inb).toLoadRect.idx j) := by
  unfold kernelRun0_A.sl.HS0_8
  refine (View.readCov_cons_of_disjoint _ _ _ _ ?_).trans (rd7 c arg2 harg2 arg3 harg3 arg4 harg4 arg9 x0 x1 x2 o inb (by omega))
  exact Rect.unit_disjoint (s := S1x1x8192) (off := ![0, 0, 6144]) (size := S1x1x1024.size) (off' := ![0, 0, o]) (size' := S1x1x1024.size)
    (inb := inb_S1x1x8192_S1x1x1024_0_0_6144) (inb' := inb) 2
    (Or.inl (show 6144 + 1024 ≤ o from ho))

theorem v35_eq (c : Dev nD) (arg9 : Memref sig .tc .vmem S1x1x8192 .f32) :
    kernelRun0_A.sl.v35 (F := F) c arg9 = fun j => k0_pay12 ((Rect.unit (s := S1x1x8192) ![0, 0, 0] S1x1x1024.size inb_S1x1x8192_S1x1x1024_0_0_0).toLoadRect.idx j) := by
  unfold kernelRun0_A.sl.v35
  exact rd1 arg9 _

theorem v57_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v57 c arg2 harg2 arg3 harg3 arg4 harg4 arg9 x0 x1 x2 = fun j => k0_pay12 ((Rect.unit (s := S1x1x8192) ![0, 0, 1024] S1x1x1024.size inb_S1x1x8192_S1x1x1024_0_0_1024).toLoadRect.idx j) := by
  unfold kernelRun0_A.sl.v57
  exact rd2 c arg2 harg2 arg3 harg3 arg4 harg4 arg9 x0 x1 x2 1024 _ (le_refl _)

theorem v79_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v79 c arg2 harg2 arg3 harg3 arg4 harg4 arg9 x0 x1 x2 = fun j => k0_pay12 ((Rect.unit (s := S1x1x8192) ![0, 0, 2048] S1x1x1024.size inb_S1x1x8192_S1x1x1024_0_0_2048).toLoadRect.idx j) := by
  unfold kernelRun0_A.sl.v79
  exact rd3 c arg2 harg2 arg3 harg3 arg4 harg4 arg9 x0 x1 x2 2048 _ (le_refl _)

theorem v101_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v101 c arg2 harg2 arg3 harg3 arg4 harg4 arg9 x0 x1 x2 = fun j => k0_pay12 ((Rect.unit (s := S1x1x8192) ![0, 0, 3072] S1x1x1024.size inb_S1x1x8192_S1x1x1024_0_0_3072).toLoadRect.idx j) := by
  unfold kernelRun0_A.sl.v101
  exact rd4 c arg2 harg2 arg3 harg3 arg4 harg4 arg9 x0 x1 x2 3072 _ (le_refl _)

theorem v123_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v123 c arg2 harg2 arg3 harg3 arg4 harg4 arg9 x0 x1 x2 = fun j => k0_pay12 ((Rect.unit (s := S1x1x8192) ![0, 0, 4096] S1x1x1024.size inb_S1x1x8192_S1x1x1024_0_0_4096).toLoadRect.idx j) := by
  unfold kernelRun0_A.sl.v123
  exact rd5 c arg2 harg2 arg3 harg3 arg4 harg4 arg9 x0 x1 x2 4096 _ (le_refl _)

theorem v145_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v145 c arg2 harg2 arg3 harg3 arg4 harg4 arg9 x0 x1 x2 = fun j => k0_pay12 ((Rect.unit (s := S1x1x8192) ![0, 0, 5120] S1x1x1024.size inb_S1x1x8192_S1x1x1024_0_0_5120).toLoadRect.idx j) := by
  unfold kernelRun0_A.sl.v145
  exact rd6 c arg2 harg2 arg3 harg3 arg4 harg4 arg9 x0 x1 x2 5120 _ (le_refl _)

theorem v167_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v167 c arg2 harg2 arg3 harg3 arg4 harg4 arg9 x0 x1 x2 = fun j => k0_pay12 ((Rect.unit (s := S1x1x8192) ![0, 0, 6144] S1x1x1024.size inb_S1x1x8192_S1x1x1024_0_0_6144).toLoadRect.idx j) := by
  unfold kernelRun0_A.sl.v167
  exact rd7 c arg2 harg2 arg3 harg3 arg4 harg4 arg9 x0 x1 x2 6144 _ (le_refl _)

theorem v189_eq (c : Dev nD) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg9 : Memref sig .tc .vmem S1x1x8192 .f32) (x0 : Vec F S1x3x2048 .f32) (x1 : Vec F S1x3x8192 .f32) (x2 : Vec F S1x1x2048 .f32) :
    kernelRun0_A.sl.v189 c arg2 harg2 arg3 harg3 arg4 harg4 arg9 x0 x1 x2 = fun j => k0_pay12 ((Rect.unit (s := S1x1x8192) ![0, 0, 7168] ![1, 1, 1024] inb_S1x1x8192_S1x1x1024_0_0_7168).toLoadRect.idx j) := by
  unfold kernelRun0_A.sl.v189
  exact rd8 c arg2 harg2 arg3 harg3 arg4 harg4 arg9 x0 x1 x2 7168 _ (le_refl _)

end Cert.KernelIdeal.Reset

end
-- ==== Proof.Carried.lean ====
/-
  The scratch buffer a grid point leaves: the running minimum it found, folded with the column minima of its eight
  tiles, run by run; and, at the last tile of a batch, the ground-truth loss block computed from it.
-/
import proofs.«114563_j5085241278567_2_alg».proof.Proof.Gen.KernelIdeal.Frame
import proofs.«114563_j5085241278567_2_alg».proof.Proof.BlockAcc
import proofs.«114563_j5085241278567_2_alg».proof.Proof.BlockOut
import proofs.«114563_j5085241278567_2_alg».proof.Proof.ResetLoads
import Idealize.ShloMosaic.Lib.Pipeline.Value
import Idealize.ShloMosaic.Lib.Pipeline.CanonAppend
import Idealize.ShloMosaic.Lib.Tactic

set_option maxRecDepth 16384

noncomputable section

open scoped BigOperators
open Idealize.ShloMosaic Idealize.ShloMosaic.TcCoe Idealize.SL.Sem

namespace Cert.KernelIdeal.Carried

open Cert.KernelIdeal Cert.KernelIdeal.Gen Cert.KernelIdeal.Block Cert.KernelIdeal.Reset Cert.Chamfer
open Idealize.ShloMosaic.ValueIdx

variable (x0 : Vec Ideal S1x3x2048 .f32) (x1 : Vec Ideal S1x3x8192 .f32) (x2 : Vec Ideal S1x1x2048 .f32)

/-- The running minimum after a grid point: what it found (`old`) folded with the point's column minima. -/
def carry (old : S1x1x8192.Idx → EReal) (y : S1x1x8192.Idx) : EReal :=
  min (old y) (Finset.univ.inf fun p : Fin 2048 => bdist x0 x1 x2 p (y 2))

/-! ## Each run's update is the body's payload -/

theorem upd0_eq (ld : Vec Ideal S1x1x1024 .f32) : k0_pay16 (k0_pay15 x0 x1 x2) ld = upd (tl x0 x1 x2 0 Gen.slices_S3x8192_o0_0_S3x1024 Gen.slices_S8192_o0_S1024) ld := by
  unfold k0_pay16 k0_pay15 k0_pay13 upd colm tl tile
  with_reducible rfl
theorem upd1_eq (ld : Vec Ideal S1x1x1024 .f32) : k0_pay19 (k0_pay6 x1) (k0_pay9 x0 x2) (k0_pay10 x0 x2) (k0_pay11 x1) ld = upd (tl x0 x1 x2 1024 Gen.slices_S3x8192_o0_1024_S3x1024 Gen.slices_S8192_o1024_S1024) ld := by
  unfold k0_pay19 k0_pay17 upd colm tl tile
  with_reducible rfl
theorem upd2_eq (ld : Vec Ideal S1x1x1024 .f32) : k0_pay22 (k0_pay20 (k0_pay6 x1) (k0_pay9 x0 x2) (k0_pay10 x0 x2) (k0_pay11 x1)) ld = upd (tl x0 x1 x2 2048 Gen.slices_S3x8192_o0_2048_S3x1024 Gen.slices_S8192_o2048_S1024) ld := by
  unfold k0_pay22 k0_pay21 k0_pay20 upd colm tl tile
  with_reducible rfl
theorem upd3_eq (ld : Vec Ideal S1x1x1024 .f32) : k0_pay25 (k0_pay6 x1) (k0_pay9 x0 x2) (k0_pay10 x0 x2) (k0_pay11 x1) ld = upd (tl x0 x1 x2 3072 Gen.slices_S3x8192_o0_3072_S3x1024 Gen.slices_S8192_o3072_S1024) ld := by
  unfold k0_pay25 k0_pay23 upd colm tl tile
  with_reducible rfl
theorem upd4_eq (ld : Vec Ideal S1x1x1024 .f32) : k0_pay30 (k0_pay26 (k0_pay11 x1)) (k0_pay27 (k0_pay6 x1) (k0_pay9 x0 x2)) (k0_pay28 (k0_pay10 x0 x2)) ld = upd (tl x0 x1 x2 4096 Gen.slices_S3x8192_o0_4096_S3x1024 Gen.slices_S8192_o4096_S1024) ld := by
  unfold k0_pay30 k0_pay29 k0_pay28 k0_pay27 k0_pay26 upd colm tl tile
  with_reducible rfl
theorem upd5_eq (ld : Vec Ideal S1x1x1024 .f32) : k0_pay34 (k0_pay33 (k0_pay6 x1) (k0_pay9 x0 x2) (k0_pay10 x0 x2) (k0_pay11 x1) ld) = upd (tl x0 x1 x2 5120 Gen.slices_S3x8192_o0_5120_S3x1024 Gen.slices_S8192_o5120_S1024) ld := by
  unfold k0_pay34 k0_pay33 k0_pay31 upd colm tl tile
  with_reducible rfl
theorem upd6_eq (ld : Vec Ideal S1x1x1024 .f32) : k0_pay36 (k0_pay6 x1) (k0_pay9 x0 x2) (k0_pay10 x0 x2) (k0_pay11 x1) ld = upd (tl x0 x1 x2 6144 Gen.slices_S3x8192_o0_6144_S3x1024 Gen.slices_S8192_o6144_S1024) ld := by
  unfold k0_pay36 k0_pay35 upd colm tl tile
  with_reducible rfl
theorem upd7_eq (ld : Vec Ideal S1x1x1024 .f32) : k0_pay1 (k0_pay39 (k0_pay6 x1) (k0_pay9 x0 x2) (k0_pay10 x0 x2) (k0_pay11 x1)) ld = upd (tl x0 x1 x2 7168 Gen.slices_S3x8192_o0_7168_S3x1024 Gen.slices_S8192_o7168_S1024) ld := by
  unfold k0_pay1 k0_pay39 k0_pay37 upd colm tl tile
  with_reducible rfl

/-- The update of the run that starts at `o` agrees with `carry` on that run, when the run's load reads `old` there. -/
theorem piece_ok (o : Nat) (inb : ∀ a, (![0, 0, o] : Fin 3 → Nat) a + S1x1x1024.size a ≤ S1x1x8192.size a)
    (h1 : S3x8192.Slices ![0, o] S3x1024) (h2 : S8192.Slices ![o] S1024) (c : Fin 8) (hc : o = 1024 * c.val)
    (old : S1x1x8192.Idx → EReal) (ld : Vec Ideal S1x1x1024 .f32)
    (hld : ∀ k : Fin 1024, ld (ix3 (0 : Fin 1) (0 : Fin 1) k) = old ((Rect.unit (s := S1x1x8192) ![0, 0, o] S1x1x1024.size inb).emb (ix3 (0 : Fin 1) (0 : Fin 1) k)))
    (x : S1x1x1024.Idx) :
    upd (tl x0 x1 x2 o h1 h2) ld x = carry x0 x1 x2 old ((Rect.unit (s := S1x1x8192) ![0, 0, o] S1x1x1024.size inb).emb x) := by
  obtain ⟨u, v, k, rfl⟩ : ∃ (u v : Fin 1) (k : Fin 1024), x = ix3 u v k := ⟨x 0, x 1, x 2, eq_ix3 x⟩
  obtain rfl : u = 0 := Subsingleton.elim _ _
  obtain rfl : v = 0 := Subsingleton.elim _ _
  rw [upd_apply, hld, colm_tl x0 x1 x2 o h1 h2 c hc k]
  unfold carry
  have e : ((Rect.unit (s := S1x1x8192) ![0, 0, o] S1x1x1024.size inb).emb (ix3 (0 : Fin 1) (0 : Fin 1) k) 2 : Fin 8192) = run8 c k :=
    Fin.ext (by show o + 1 * k.val = 1024 * c.val + k.val; omega)
  rw [e]

/-- Every index of the scratch buffer lies in one of the eight runs. -/
theorem cover8 {Val : EltTy → Type} (w0 w1 w2 w3 w4 w5 w6 : S1x1x1024.Idx → Val .f32)
    (w7 : (⟨3, ![1, 1, 1024]⟩ : Shape).Idx → Val .f32) (y : S1x1x8192.Idx) :
    ∃ p ∈ ([⟨Rect.unit (s := S1x1x8192) ![0, 0, 7168] ![1, 1, 1024] inb_S1x1x8192_S1x1x1024_0_0_7168, w7⟩,
        ⟨Rect.unit (s := S1x1x8192) ![0, 0, 6144] S1x1x1024.size inb_S1x1x8192_S1x1x1024_0_0_6144, w6⟩,
        ⟨Rect.unit (s := S1x1x8192) ![0, 0, 5120] S1x1x1024.size inb_S1x1x8192_S1x1x1024_0_0_5120, w5⟩,
        ⟨Rect.unit (s := S1x1x8192) ![0, 0, 4096] S1x1x1024.size inb_S1x1x8192_S1x1x1024_0_0_4096, w4⟩,
        ⟨Rect.unit (s := S1x1x8192) ![0, 0, 3072] S1x1x1024.size inb_S1x1x8192_S1x1x1024_0_0_3072, w3⟩,
        ⟨Rect.unit (s := S1x1x8192) ![0, 0, 2048] S1x1x1024.size inb_S1x1x8192_S1x1x1024_0_0_2048, w2⟩,
        ⟨Rect.unit (s := S1x1x8192) ![0, 0, 1024] S1x1x1024.size inb_S1x1x8192_S1x1x1024_0_0_1024, w1⟩,
        ⟨Rect.unit (s := S1x1x8192) ![0, 0, 0] S1x1x1024.size inb_S1x1x8192_S1x1x1024_0_0_0, w0⟩] : List (View.Piece Val S1x1x8192 .f32)),
      y ∈ p.1.set := by
  obtain ⟨u, v, g, rfl⟩ : ∃ (u v : Fin 1) (g : Fin 8192), y = ix3 u v g := ⟨y 0, y 1, y 2, eq_ix3 y⟩
  have hu := u.isLt
  have hv := v.isLt
  have hg := g.isLt
  have key : ∀ (o : Nat) (inb : ∀ a, (![0, 0, o] : Fin 3 → Nat) a + (![1, 1, 1024] : Fin 3 → Nat) a ≤ S1x1x8192.size a),
      o ≤ g.val → g.val < o + 1024 → ix3 u v g ∈ (Rect.unit (s := S1x1x8192) ![0, 0, o] ![1, 1, 1024] inb).set := by
    intro o inb h1 h2
    rw [Rect.mem_set_unit]
    intro a
    match a with
    | ⟨0, _⟩ => exact ⟨Nat.zero_le _, by show u.val < 0 + 1; omega⟩
    | ⟨1, _⟩ => exact ⟨Nat.zero_le _, by show v.val < 0 + 1; omega⟩
    | ⟨2, _⟩ => exact ⟨h1, h2⟩
  by_cases c7 : 7168 ≤ g.val
  · exact ⟨_, List.mem_cons_self, key 7168 inb_S1x1x8192_S1x1x1024_0_0_7168 c7 (by omega)⟩
  by_cases c6 : 6144 ≤ g.val
  · exact ⟨_, List.mem_cons_of_mem _ List.mem_cons_self, key 6144 inb_S1x1x8192_S1x1x1024_0_0_6144 c6 (by omega)⟩
  by_cases c5 : 5120 ≤ g.val
  · exact ⟨_, List.mem_cons_of_mem _ (List.mem_cons_of_mem _ List.mem_cons_self), key 5120 inb_S1x1x8192_S1x1x1024_0_0_5120 c5 (by omega)⟩
  by_cases c4 : 4096 ≤ g.val
  · exact ⟨_, List.mem_cons_of_mem _ (List.mem_cons_of_mem _ (List.mem_cons_of_mem _ List.mem_cons_self)), key 4096 inb_S1x1x8192_S1x1x1024_0_0_4096 c4 (by omega)⟩
  by_cases c3 : 3072 ≤ g.val
  · exact ⟨_, List.mem_cons_of_mem _ (List.mem_cons_of_mem _ (List.mem_cons_of_mem _ (List.mem_cons_of_mem _ List.mem_cons_self))), key 3072 inb_S1x1x8192_S1x1x1024_0_0_3072 c3 (by omega)⟩
  by_cases c2 : 2048 ≤ g.val
  · exact ⟨_, List.mem_cons_of_mem _ (List.mem_cons_of_mem _ (List.mem_cons_of_mem _ (List.mem_cons_of_mem _ (List.mem_cons_of_mem _ List.mem_cons_self)))), key 2048 inb_S1x1x8192_S1x1x1024_0_0_2048 c2 (by omega)⟩
  by_cases c1 : 1024 ≤ g.val
  · exact ⟨_, List.mem_cons_of_mem _ (List.mem_cons_of_mem _ (List.mem_cons_of_mem _ (List.mem_cons_of_mem _ (List.mem_cons_of_mem _ (List.mem_cons_of_mem _ List.mem_cons_self))))), key 1024 inb_S1x1x8192_S1x1x1024_0_0_1024 c1 (by omega)⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 inb_S1x1x8192_S1x1x1024_0_0_0 (Nat.zero_le _) (by omega)⟩

/-- The eight updates, over whatever the loads read, agree with `carry` run by run. -/
theorem pieces_ok (old : S1x1x8192.Idx → EReal) (l0 l1 l2 l3 l4 l5 l6 : Vec Ideal S1x1x1024 .f32)
    (l7 : (⟨3, ![1, 1, 1024]⟩ : Shape).Idx → EReal)
    (h0 : ∀ k : Fin 1024, l0 (ix3 (0 : Fin 1) (0 : Fin 1) k) = old ((Rect.unit (s := S1x1x8192) ![0, 0, 0] S1x1x1024.size inb_S1x1x8192_S1x1x1024_0_0_0).emb (ix3 (0 : Fin 1) (0 : Fin 1) k)))
    (h1 : ∀ k : Fin 1024, l1 (ix3 (0 : Fin 1) (0 : Fin 1) k) = old ((Rect.unit (s := S1x1x8192) ![0, 0, 1024] S1x1x1024.size inb_S1x1x8192_S1x1x1024_0_0_1024).emb (ix3 (0 : Fin 1) (0 : Fin 1) k)))
    (h2 : ∀ k : Fin 1024, l2 (ix3 (0 : Fin 1) (0 : Fin 1) k) = old ((Rect.unit (s := S1x1x8192) ![0, 0, 2048] S1x1x1024.size inb_S1x1x8192_S1x1x1024_0_0_2048).emb (ix3 (0 : Fin 1) (0 : Fin 1) k)))
    (h3 : ∀ k : Fin 1024, l3 (ix3 (0 : Fin 1) (0 : Fin 1) k) = old ((Rect.unit (s := S1x1x8192) ![0, 0, 3072] S1x1x1024.size inb_S1x1x8192_S1x1x1024_0_0_3072).emb (ix3 (0 : Fin 1) (0 : Fin 1) k)))
    (h4 : ∀ k : Fin 1024, l4 (ix3 (0 : Fin 1) (0 : Fin 1) k) = old ((Rect.unit (s := S1x1x8192) ![0, 0, 4096] S1x1x1024.size inb_S1x1x8192_S1x1x1024_0_0_4096).emb (ix3 (0 : Fin 1) (0 : Fin 1) k)))
    (h5 : ∀ k : Fin 1024, l5 (ix3 (0 : Fin 1) (0 : Fin 1) k) = old ((Rect.unit (s := S1x1x8192) ![0, 0, 5120] S1x1x1024.size inb_S1x1x8192_S1x1x1024_0_0_5120).emb (ix3 (0 : Fin 1) (0 : Fin 1) k)))
    (h6 : ∀ k : Fin 1024, l6 (ix3 (0 : Fin 1) (0 : Fin 1) k) = old ((Rect.unit (s := S1x1x8192) ![0, 0, 6144] S1x1x1024.size inb_S1x1x8192_S1x1x1024_0_0_6144).emb (ix3 (0 : Fin 1) (0 : Fin 1) k)))
    (h7 : ∀ k : Fin 1024, l7 (ix3 (0 : Fin 1) (0 : Fin 1) k) = old ((Rect.unit (s := S1x1x8192) ![0, 0, 7168] S1x1x1024.size inb_S1x1x8192_S1x1x1024_0_0_7168).emb (ix3 (0 : Fin 1) (0 : Fin 1) k))) :
    ∀ p ∈ ([⟨Rect.unit (s := S1x1x8192) ![0, 0, 7168] ![1, 1, 1024] inb_S1x1x8192_S1x1x1024_0_0_7168, upd (tl x0 x1 x2 7168 Gen.slices_S3x8192_o0_7168_S3x1024 Gen.slices_S8192_o7168_S1024) l7⟩,
        ⟨Rect.unit (s := S1x1x8192) ![0, 0, 6144] S1x1x1024.size inb_S1x1x8192_S1x1x1024_0_0_6144, upd (tl x0 x1 x2 6144 Gen.slices_S3x8192_o0_6144_S3x1024 Gen.slices_S8192_o6144_S1024) l6⟩,
        ⟨Rect.unit (s := S1x1x8192) ![0, 0, 5120] S1x1x1024.size inb_S1x1x8192_S1x1x1024_0_0_5120, upd (tl x0 x1 x2 5120 Gen.slices_S3x8192_o0_5120_S3x1024 Gen.slices_S8192_o5120_S1024) l5⟩,
        ⟨Rect.unit (s := S1x1x8192) ![0, 0, 4096] S1x1x1024.size inb_S1x1x8192_S1x1x1024_0_0_4096, upd (tl x0 x1 x2 4096 Gen.slices_S3x8192_o0_4096_S3x1024 Gen.slices_S8192_o4096_S1024) l4⟩,
        ⟨Rect.unit (s := S1x1x8192) ![0, 0, 3072] S1x1x1024.size inb_S1x1x8192_S1x1x1024_0_0_3072, upd (tl x0 x1 x2 3072 Gen.slices_S3x8192_o0_3072_S3x1024 Gen.slices_S8192_o3072_S1024) l3⟩,
        ⟨Rect.unit (s := S1x1x8192) ![0, 0, 2048] S1x1x1024.size inb_S1x1x8192_S1x1x1024_0_0_2048, upd (tl x0 x1 x2 2048 Gen.slices_S3x8192_o0_2048_S3x1024 Gen.slices_S8192_o2048_S1024) l2⟩,
        ⟨Rect.unit (s := S1x1x8192) ![0, 0, 1024] S1x1x1024.size inb_S1x1x8192_S1x1x1024_0_0_1024, upd (tl x0 x1 x2 1024 Gen.slices_S3x8192_o0_1024_S3x1024 Gen.slices_S8192_o1024_S1024) l1⟩,
        ⟨Rect.unit (s := S1x1x8192) ![0, 0, 0] S1x1x1024.size inb_S1x1x8192_S1x1x1024_0_0_0, upd (tl x0 x1 x2 0 Gen.slices_S3x8192_o0_0_S3x1024 Gen.slices_S8192_o0_S1024) l0⟩] : List (View.Piece (Elt Ideal) S1x1x8192 .f32)),
      ∀ x : p.1.shape.Idx, p.2 x = carry x0 x1 x2 old (p.1.emb x) := by
  intro p hp
  simp only [List.mem_cons, List.not_mem_nil, or_false] at hp
  rcases hp with rfl | rfl | rfl | rfl | rfl | rfl | rfl | rfl
  · exact piece_ok x0 x1 x2 7168 _ _ _ 7 rfl old l7 h7
  · exact piece_ok x0 x1 x2 6144 _ _ _ 6 rfl old l6 h6
  · exact piece_ok x0 x1 x2 5120 _ _ _ 5 rfl old l5 h5
  · exact piece_ok x0 x1 x2 4096 _ _ _ 4 rfl old l4 h4
  · exact piece_ok x0 x1 x2 3072 _ _ _ 3 rfl old l3 h3
  · exact piece_ok x0 x1 x2 2048 _ _ _ 2 rfl old l2 h2
  · exact piece_ok x0 x1 x2 1024 _ _ _ 1 rfl old l1 h1
  · exact piece_ok x0 x1 x2 0 _ _ _ 0 rfl old l0 h0

/-- Case B: the scratch buffer ends at the minimum it held folded with the point's column minima. -/
theorem scratch_B (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : ¬cond0_1 i) (x3 : Vec Ideal S1x1x2048 .f32) (xs0 : Vec Ideal S1x1x8192 .f32) (y : S1x1x8192.Idx) :
    sout0_B_0 c i arg2 harg2 arg3 harg3 arg4 harg4 arg5 harg5 arg6 harg6 arg7 harg7 arg8 harg8 arg9 harg9 hc0 hc1 x0 x1 x2 x3 xs0 y = carry x0 x1 x2 xs0 y := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0)]
  refine View.canon_apply_of_pieces (carry x0 x1 x2 xs0) _ ?_ y (scover0_B_0 c i arg2 harg2 arg3 harg3 arg4 harg4 arg5 harg5 arg6 harg6 arg7 harg7 arg8 harg8 arg9 harg9 hc0 hc1 x0 x1 x2 x3 xs0 y)
  unfold kernelRun0_B
  dsimp only
  sl_unfold_words
  simp only [View.readAt_eq_ld, harg2.read_unread, harg3.read_unread, harg4.read_unread, harg9.read_unread,
    View.ld_unit_zero (S := S1x3x2048) offsets_zero, View.ld_unit_zero (S := S1x3x8192) offsets_zero, View.ld_unit_zero (S := S1x1x2048) offsets_zero]
  simp only [upd0_eq, upd1_eq, upd2_eq, upd3_eq, upd4_eq, upd5_eq, upd6_eq, upd7_eq]
  exact pieces_ok x0 x1 x2 xs0 _ _ _ _ _ _ _ _ (fun _ => rfl) (fun _ => rfl) (fun _ => rfl) (fun _ => rfl) (fun _ => rfl)
    (fun _ => rfl) (fun _ => rfl) (fun _ => rfl)

/-- Case C: the scratch buffer ends at the minimum it held folded with the point's column minima. -/
theorem scratch_C (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : cond0_1 i) (x3 : Vec Ideal S1x1x2048 .f32) (xs0 : Vec Ideal S1x1x8192 .f32) (y : S1x1x8192.Idx) :
    sout0_C_0 c i arg2 harg2 arg3 harg3 arg4 harg4 arg5 harg5 arg6 harg6 arg7 harg7 arg8 harg8 arg9 harg9 hc0 hc1 x0 x1 x2 x3 xs0 y = carry x0 x1 x2 xs0 y := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0)]
  refine View.canon_apply_of_pieces (carry x0 x1 x2 xs0) _ ?_ y (scover0_C_0 c i arg2 harg2 arg3 harg3 arg4 harg4 arg5 harg5 arg6 harg6 arg7 harg7 arg8 harg8 arg9 harg9 hc0 hc1 x0 x1 x2 x3 xs0 y)
  unfold kernelRun0_C
  dsimp only
  sl_unfold_words
  simp only [View.readAt_eq_ld, harg2.read_unread, harg3.read_unread, harg4.read_unread, harg9.read_unread,
    View.ld_unit_zero (S := S1x3x2048) offsets_zero, View.ld_unit_zero (S := S1x3x8192) offsets_zero, View.ld_unit_zero (S := S1x1x2048) offsets_zero]
  simp only [upd0_eq, upd1_eq, upd2_eq, upd3_eq, upd4_eq, upd5_eq, upd6_eq, upd7_eq]
  exact pieces_ok x0 x1 x2 xs0 _ _ _ _ _ _ _ _ (fun _ => rfl) (fun _ => rfl) (fun _ => rfl) (fun _ => rfl) (fun _ => rfl)
    (fun _ => rfl) (fun _ => rfl) (fun _ => rfl)

/-- Case A (the first tile of a batch): the reset, then the same fold, from +∞. -/
theorem scratch_A (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : cond0_0 i) (hc1 : ¬cond0_1 i) (x3 : Vec Ideal S1x1x2048 .f32) (y : S1x1x8192.Idx) :
    sout0_A_0 c i arg2 harg2 arg3 harg3 arg4 harg4 arg5 harg5 arg6 harg6 arg7 harg7 arg8 harg8 arg9 harg9 hc0 hc1 x0 x1 x2 x3 y = carry x0 x1 x2 (k0_pay12 (F := Ideal)) y := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  unfold kernelRun0_A.sl.HS0_8 kernelRun0_A.sl.HS0_7 kernelRun0_A.sl.HS0_6 kernelRun0_A.sl.HS0_5 kernelRun0_A.sl.HS0_4
    kernelRun0_A.sl.HS0_3 kernelRun0_A.sl.HS0_2 kernelRun0_A.sl.r_15
  simp only [v35_eq, v57_eq, v79_eq, v101_eq, v123_eq, v145_eq, v167_eq, v189_eq]
  sl_unfold_words
  simp only [View.readAt_eq_ld, harg2.read_unread, harg3.read_unread, harg4.read_unread, harg9.read_unread,
    View.ld_unit_zero (S := S1x3x2048) offsets_zero, View.ld_unit_zero (S := S1x3x8192) offsets_zero, View.ld_unit_zero (S := S1x1x2048) offsets_zero]
  simp only [upd0_eq, upd1_eq, upd2_eq, upd3_eq, upd4_eq, upd5_eq, upd6_eq, upd7_eq]
  refine View.canon_append_of_pieces (Val := Elt Ideal) (carry x0 x1 x2 (k0_pay12 (F := Ideal))) _ [_, _, _, _, _, _, _, _] ?_ y (cover8 _ _ _ _ _ _ _ _ y)
  exact pieces_ok x0 x1 x2 (k0_pay12 (F := Ideal)) _ _ _ _ _ _ _ _ (fun _ => rfl) (fun _ => rfl) (fun _ => rfl) (fun _ => rfl)
    (fun _ => rfl) (fun _ => rfl) (fun _ => rfl) (fun _ => rfl)

/-- Case C (the last tile of a batch): the ground-truth loss block is `100·√` of the carried minimum, clamped at 0. -/
theorem out6_C (c : Dev nD) (i : grid0.Coords) (arg2 : Memref sig .tc .vmem S1x3x2048 .f32) (harg2 : arg2.IsWhole) (arg3 : Memref sig .tc .vmem S1x3x8192 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x8192 .f32) (harg8 : arg8.IsWhole) (arg9 : Memref sig .tc .vmem S1x1x8192 .f32) (harg9 : arg9.IsWhole) (hc0 : ¬cond0_0 i) (hc1 : cond0_1 i) (x3 : Vec Ideal S1x1x2048 .f32) (xs0 : Vec Ideal S1x1x8192 .f32) (u v : Fin 1) (g : Fin 8192) :
    out0_C_6 c i arg2 harg2 arg3 harg3 arg4 harg4 arg5 harg5 arg6 harg6 arg7 harg7 arg8 harg8 arg9 harg9 hc0 hc1 x0 x1 x2 x3 xs0 (ix3 u v g)
      = Ideal.sqrt (max (carry x0 x1 x2 xs0 (ix3 (0 : Fin 1) (0 : Fin 1) g)) zero) * hundred := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero offsets_zero, pay5_apply, View.readCov_eq_canon']
  simp only [View.readAt_eq_ld, harg2.read_unread, harg3.read_unread, harg4.read_unread, harg9.read_unread,
    View.ld_unit_zero (S := S1x3x2048) offsets_zero, View.ld_unit_zero (S := S1x3x8192) offsets_zero, View.ld_unit_zero (S := S1x1x2048) offsets_zero]
  simp only [upd0_eq, upd1_eq, upd2_eq, upd3_eq, upd4_eq, upd5_eq, upd6_eq, upd7_eq]
  have e : (Rect.unit (s := S1x1x8192) ![0, 0, 0] ![1, 1, 8192] inb_S1x1x8192_S1x1x8192_0_0_0).toLoadRect.idx (ix3 (0 : Fin 1) (0 : Fin 1) g)
      = ix3 (0 : Fin 1) (0 : Fin 1) g := funext fun a => Fin.ext (by
    match a with
    | ⟨0, _⟩ => rfl
    | ⟨1, _⟩ => rfl
    | ⟨2, _⟩ => show 0 + 1 * g.val = g.val; omega)
  rw [e, View.canon_apply_of_pieces (carry x0 x1 x2 xs0) _
    (pieces_ok x0 x1 x2 xs0 _ _ _ _ _ _ _ _ (fun _ => rfl) (fun _ => rfl) (fun _ => rfl) (fun _ => rfl) (fun _ => rfl)
      (fun _ => rfl) (fun _ => rfl) (fun _ => rfl)) _ (cover8 _ _ _ _ _ _ _ _ _)]

end Cert.KernelIdeal.Carried

end
-- ==== Proof.PointValue.lean ====
/-
  The grid points, one after the other.  Grid point t = 4·b + i handles tile i (2048 predicted points) of batch b.
  Read through the transposes and broadcasts made before the region, its input blocks are slices of the arguments, so the distances it forms are the
  specification's; its two per-point blocks are the specification's losses on the tile; and the scratch buffer it
  leaves holds, for every ground-truth point, the infimum of the distances over the predicted points of tiles 0 … i
  — by induction on the point.  After tile 3 that is the infimum over all predicted points, from which the last
  tile's third block is the ground-truth loss (the clamp at 0 changes nothing: the distances are already clamped).
-/
import proofs.«114563_j5085241278567_2_alg».proof.Proof.Gen.KernelIdeal.Frame
import proofs.«114563_j5085241278567_2_alg».proof.Proof.KernelIO
import proofs.«114563_j5085241278567_2_alg».proof.Proof.PointBlocks
import proofs.«114563_j5085241278567_2_alg».proof.Proof.Carried
import proofs.«114563_j5085241278567_2_alg».proof.Proof.ChamferSpec

set_option maxRecDepth 16384

noncomputable section

open scoped BigOperators
open Idealize.ShloMosaic Idealize.ShloMosaic.TcCoe Idealize.SL.Sem

namespace Cert.KernelIdeal.Points

open Cert.KernelIdeal Cert.KernelIdeal.Gen Cert.KernelIdeal.Block Cert.KernelIdeal.Pieces Cert.KernelIdeal.Carried Cert.KernelIdeal.IO
open Cert.Chamfer Idealize.ShloMosaic.ValueIdx

variable (m : (ℓ : Loc nD τ sig) → Buf (Elt Ideal) ℓ) (c : Dev nD)

/-- The arguments: predicted points, ground-truth points, mask, confidence. -/
abbrev X : Pts := m ((c.tc : Thread nD τ).loc main_arg1)
abbrev Y : Pts := m ((c.tc : Thread nD τ).loc main_arg0)
abbrev M : Wts := m ((c.tc : Thread nD τ).loc main_arg2)
abbrev C : Wts := m ((c.tc : Thread nD τ).loc main_arg3)

/-! ## The body's values at the blocks of point t -/

theorem o4A (t : Fin cfg0.N) (h0 : cond0_0 (grid0.coords t)) (h1 : ¬cond0_1 (grid0.coords t)) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t)
      = k0_pay4 (k0_pay7 (iblk m c 2 t)) (k0_pay8 (iblk m c 3 t)) (rowAcc (iblk m c 0 t) (iblk m c 1 t) (iblk m c 2 t)) :=
  out4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t)
theorem o5A (t : Fin cfg0.N) (h0 : cond0_0 (grid0.coords t)) (h1 : ¬cond0_1 (grid0.coords t)) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t)
      = k0_pay3 (k0_pay7 (iblk m c 2 t)) (rowAcc (iblk m c 0 t) (iblk m c 1 t) (iblk m c 2 t)) :=
  out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t)
theorem sA (t : Fin cfg0.N) (h0 : cond0_0 (grid0.coords t)) (h1 : ¬cond0_1 (grid0.coords t)) (y : S1x1x8192.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) y
      = carry (iblk m c 0 t) (iblk m c 1 t) (iblk m c 2 t) (k0_pay12 (F := Ideal)) y :=
  scratch_A (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 3 t) y

theorem o4B (t : Fin cfg0.N) (h0 : ¬cond0_0 (grid0.coords t)) (h1 : ¬cond0_1 (grid0.coords t)) (xs0 : Vec Ideal S1x1x8192 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
      = k0_pay4 (k0_pay7 (iblk m c 2 t)) (k0_pay8 (iblk m c 3 t)) (rowAcc (iblk m c 0 t) (iblk m c 1 t) (iblk m c 2 t)) :=
  out4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
theorem o5B (t : Fin cfg0.N) (h0 : ¬cond0_0 (grid0.coords t)) (h1 : ¬cond0_1 (grid0.coords t)) (xs0 : Vec Ideal S1x1x8192 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
      = k0_pay3 (k0_pay7 (iblk m c 2 t)) (rowAcc (iblk m c 0 t) (iblk m c 1 t) (iblk m c 2 t)) :=
  out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
theorem sB (t : Fin cfg0.N) (h0 : ¬cond0_0 (grid0.coords t)) (h1 : ¬cond0_1 (grid0.coords t)) (xs0 : Vec Ideal S1x1x8192 .f32) (y : S1x1x8192.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0 y
      = carry (iblk m c 0 t) (iblk m c 1 t) (iblk m c 2 t) xs0 y :=
  scratch_B (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 3 t) xs0 y

theorem o4C (t : Fin cfg0.N) (h0 : ¬cond0_0 (grid0.coords t)) (h1 : cond0_1 (grid0.coords t)) (xs0 : Vec Ideal S1x1x8192 .f32) :
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
      = k0_pay4 (k0_pay7 (iblk m c 2 t)) (k0_pay8 (iblk m c 3 t)) (rowAcc (iblk m c 0 t) (iblk m c 1 t) (iblk m c 2 t)) :=
  out4_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
theorem o5C (t : Fin cfg0.N) (h0 : ¬cond0_0 (grid0.coords t)) (h1 : cond0_1 (grid0.coords t)) (xs0 : Vec Ideal S1x1x8192 .f32) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
      = k0_pay3 (k0_pay7 (iblk m c 2 t)) (rowAcc (iblk m c 0 t) (iblk m c 1 t) (iblk m c 2 t)) :=
  out5_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0
theorem sC (t : Fin cfg0.N) (h0 : ¬cond0_0 (grid0.coords t)) (h1 : cond0_1 (grid0.coords t)) (xs0 : Vec Ideal S1x1x8192 .f32) (y : S1x1x8192.Idx) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0 y
      = carry (iblk m c 0 t) (iblk m c 1 t) (iblk m c 2 t) xs0 y :=
  scratch_C (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 3 t) xs0 y

theorem o6C (t : Fin cfg0.N) (h0 : ¬cond0_0 (grid0.coords t)) (h1 : cond0_1 (grid0.coords t)) (xs0 : Vec Ideal S1x1x8192 .f32) (u v : Fin 1) (g : Fin 8192) :
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 0 t) (iblk m c 1 t) (iblk m c 2 t) (iblk m c 3 t) xs0 (ix3 u v g)
      = Ideal.sqrt (max (carry (iblk m c 0 t) (iblk m c 1 t) (iblk m c 2 t) xs0 (ix3 (0 : Fin 1) (0 : Fin 1) g)) zero) * hundred :=
  out6_C (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 (iblk m c 3 t) xs0 u v g

/-! ## The blocks are slices of the arguments -/

/-- A distance formed from the blocks of point t = 4b + i is the specification's, at predicted point 2048·i + p. -/
theorem bdist_blocks (t : Fin cfg0.N) (b : Fin 2) (i : Fin 4) (hb : b.val = t.val / 4) (hi : i.val = t.val % 4)
    (p : Fin 2048) (g : Fin 8192) :
    bdist (iblk m c 0 t) (iblk m c 1 t) (iblk m c 2 t) p g = Cert.Chamfer.dist (X m c) (Y m c) (M m c) b (run4 i p) g := by
  unfold bdist bxsq bysq bdot bxm Cert.Chamfer.dist xsq ysq dotp xm
  simp only [blk0 m c t b i hb hi, blk1 m c t b hb, blk2 m c t b i hb hi]

/-- The distances to ground-truth point g, as a function of the predicted point. -/
def fD (b : Fin 2) (g : Fin 8192) : Fin 8192 → EReal := fun p => Cert.Chamfer.dist (X m c) (Y m c) (M m c) b p g

theorem carry_blocks (t : Fin cfg0.N) (b : Fin 2) (i : Fin 4) (hb : b.val = t.val / 4) (hi : i.val = t.val % 4)
    (old : S1x1x8192.Idx → EReal) (g : Fin 8192) :
    carry (iblk m c 0 t) (iblk m c 1 t) (iblk m c 2 t) old (ix3 (0 : Fin 1) (0 : Fin 1) g)
      = min (old (ix3 (0 : Fin 1) (0 : Fin 1) g)) (inf4 (fD m c b g) i) := by
  unfold carry inf4 fD
  exact congrArg (min _) (Finset.inf_congr rfl fun p _ => bdist_blocks m c t b i hb hi p g)

theorem infBelow_one (f : Fin 8192 → EReal) : infBelow f 1 = min ⊤ (inf4 f 0) := by
  have h : infBelow f ((0 : Fin 4).val + 1) = min (infBelow f (0 : Fin 4).val) (inf4 f 0) := infBelow_succ f 0
  rw [show infBelow f (0 : Fin 4).val = ⊤ from infBelow_zero f] at h
  exact h

theorem reset_top (y : S1x1x8192.Idx) : k0_pay12 (F := Ideal) y = ⊤ := by
  unfold k0_pay12
  rw [shapeCast_self, broadcast_apply]
  exact inf_eq_top

/-! ## The carried minimum, by induction on the point -/

theorem scratch_inv : ∀ (n : ℕ) (hn : n < cfg0.N) (b : Fin 2) (_ : b.val = n / 4) (g : Fin 8192),
    ((outsAt0 m c n hn).2.2.2 : Vec Ideal S1x1x8192 .f32) (ix3 (0 : Fin 1) (0 : Fin 1) g)
      = infBelow (fD m c b g) (n % 4 + 1) := by
  intro n
  induction n with
  | zero =>
    intro hn b hb g
    have e : outsAt0 m c 0 hn = _ := outsAt0_A m c ⟨0, hn⟩ rfl (by show ¬0 % 4 = 3; decide)
    rw [e]
    dsimp only
    rw [sA m c ⟨0, hn⟩, carry_blocks m c ⟨0, hn⟩ b 0 hb rfl, reset_top]
    exact (infBelow_one _).symm
  | succ k ih =>
    intro hn b hb g
    have hN : cfg0.N = 8 := N_0
    have hk : k + 1 < 8 := lt_of_lt_of_eq hn hN
    by_cases h0 : (k + 1) % 4 = 0
    · have h1 : ¬(k + 1) % 4 = 3 := by omega
      have e : outsAt0 m c (k + 1) hn = _ := outsAt0_A m c ⟨k + 1, hn⟩ h0 h1
      rw [e]
      dsimp only
      rw [sA m c ⟨k + 1, hn⟩, carry_blocks m c ⟨k + 1, hn⟩ b 0 hb (by show (0 : Fin 4).val = (k + 1) % 4; rw [h0]; rfl), reset_top, h0]
      exact (infBelow_one _).symm
    · have hb' : b.val = k / 4 := by rw [hb]; omega
      have hprev := ih (Nat.lt_of_succ_lt hn) b hb' g
      have hi : ((⟨(k + 1) % 4, Nat.mod_lt _ (by decide)⟩ : Fin 4)).val = (k + 1) % 4 := rfl
      have hfold : min (infBelow (fD m c b g) (k % 4 + 1)) (inf4 (fD m c b g) ⟨(k + 1) % 4, Nat.mod_lt _ (by decide)⟩)
          = infBelow (fD m c b g) ((k + 1) % 4 + 1) := by
        have : k % 4 + 1 = (k + 1) % 4 := by omega
        rw [this]
        exact (infBelow_succ (fD m c b g) ⟨(k + 1) % 4, Nat.mod_lt _ (by decide)⟩).symm
      by_cases h1 : (k + 1) % 4 = 3
      · have e : outsAt0 m c (k + 1) hn = _ := outsAt0_C m c ⟨k + 1, hn⟩ h0 h1
        rw [e]
        dsimp only
        rw [sC m c ⟨k + 1, hn⟩, carry_blocks m c ⟨k + 1, hn⟩ b ⟨(k + 1) % 4, Nat.mod_lt _ (by decide)⟩ hb hi]
        exact (congrArg (min · _) hprev).trans hfold
      · have e : outsAt0 m c (k + 1) hn = _ := outsAt0_B m c ⟨k + 1, hn⟩ h0 h1
        rw [e]
        dsimp only
        rw [sB m c ⟨k + 1, hn⟩, carry_blocks m c ⟨k + 1, hn⟩ b ⟨(k + 1) % 4, Nat.mod_lt _ (by decide)⟩ hb hi]
        exact (congrArg (min · _) hprev).trans hfold

/-! ## The two per-point result blocks -/

/-- The accumulated row minimum of point t is the specification's nearest squared distance. -/
theorem rowAcc_blocks (t : Fin cfg0.N) (b : Fin 2) (i : Fin 4) (hb : b.val = t.val / 4) (hi : i.val = t.val % 4) (p : Fin 2048) :
    rowAcc (iblk m c 0 t) (iblk m c 1 t) (iblk m c 2 t) (ix1 p) = rowMin (X m c) (Y m c) (M m c) b (run4 i p) := by
  rw [rowAcc_apply]
  unfold rowMin
  exact Finset.inf_congr rfl fun g _ => bdist_blocks m c t b i hb hi p g

theorem conf_tail (t : Fin cfg0.N) (b : Fin 2) (i : Fin 4) (hb : b.val = t.val / 4) (hi : i.val = t.val % 4) (p : Fin 2048) :
    k0_pay4 (k0_pay7 (iblk m c 2 t)) (k0_pay8 (iblk m c 3 t)) (rowAcc (iblk m c 0 t) (iblk m c 1 t) (iblk m c 2 t)) (ix3 (0 : Fin 1) (0 : Fin 1) p)
      = lossConf (X m c) (Y m c) (M m c) (C m c) b (run4 i p) := by
  rw [pay4_apply, rowAcc_blocks m c t b i hb hi, pay7_apply, pay8_apply, blk2 m c t b i hb hi, blk3 m c t b i hb hi]
  rfl

theorem pred_tail (t : Fin cfg0.N) (b : Fin 2) (i : Fin 4) (hb : b.val = t.val / 4) (hi : i.val = t.val % 4) (p : Fin 2048) :
    k0_pay3 (k0_pay7 (iblk m c 2 t)) (rowAcc (iblk m c 0 t) (iblk m c 1 t) (iblk m c 2 t)) (ix3 (0 : Fin 1) (0 : Fin 1) p)
      = lossPred (X m c) (Y m c) (M m c) b (run4 i p) := by
  rw [pay3_apply, rowAcc_blocks m c t b i hb hi, pay7_apply, blk2 m c t b i hb hi]
  rfl

theorem conf_block (t : Fin cfg0.N) (b : Fin 2) (i : Fin 4) (hb : b.val = t.val / 4) (hi : i.val = t.val % 4) (p : Fin 2048) :
    ((outsAt0 m c t.val t.isLt).1 : Vec Ideal S1x1x2048 .f32) (ix3 (0 : Fin 1) (0 : Fin 1) p)
      = lossConf (X m c) (Y m c) (M m c) (C m c) b (run4 i p) := by
  by_cases h0 : t.val % 4 = 0
  · have h1 : ¬t.val % 4 = 3 := by omega
    rw [outsAt0_A m c t h0 h1]
    dsimp only
    rw [o4A m c t]
    exact conf_tail m c t b i hb hi p
  · by_cases h1 : t.val % 4 = 3
    · rw [outsAt0_C m c t h0 h1]
      dsimp only
      rw [o4C m c t]
      exact conf_tail m c t b i hb hi p
    · rw [outsAt0_B m c t h0 h1]
      dsimp only
      rw [o4B m c t]
      exact conf_tail m c t b i hb hi p

theorem pred_block (t : Fin cfg0.N) (b : Fin 2) (i : Fin 4) (hb : b.val = t.val / 4) (hi : i.val = t.val % 4) (p : Fin 2048) :
    ((outsAt0 m c t.val t.isLt).2.1 : Vec Ideal S1x1x2048 .f32) (ix3 (0 : Fin 1) (0 : Fin 1) p)
      = lossPred (X m c) (Y m c) (M m c) b (run4 i p) := by
  by_cases h0 : t.val % 4 = 0
  · have h1 : ¬t.val % 4 = 3 := by omega
    rw [outsAt0_A m c t h0 h1]
    dsimp only
    rw [o5A m c t]
    exact pred_tail m c t b i hb hi p
  · by_cases h1 : t.val % 4 = 3
    · rw [outsAt0_C m c t h0 h1]
      dsimp only
      rw [o5C m c t]
      exact pred_tail m c t b i hb hi p
    · rw [outsAt0_B m c t h0 h1]
      dsimp only
      rw [o5B m c t]
      exact pred_tail m c t b i hb hi p

/-! ## The last tile's ground-truth block -/

theorem gt_block (t : Fin cfg0.N) (b : Fin 2) (h3 : t.val % 4 = 3) (hb : b.val = t.val / 4) (g : Fin 8192) :
    ((outsAt0 m c t.val t.isLt).2.2.1 : Vec Ideal S1x1x8192 .f32) (ix3 (0 : Fin 1) (0 : Fin 1) g)
      = lossGt (X m c) (Y m c) (M m c) b g := by
  have hN : cfg0.N = 8 := N_0
  have ht := t.isLt
  have h0 : ¬t.val % 4 = 0 := by omega
  rw [outsAt0_C m c t h0 h3]
  dsimp only
  rw [o6C m c t, carry_blocks m c t b 3 hb (by show 3 = t.val % 4; omega),
    scratch_inv m c (t.val - 1) _ b (by rw [hb]; omega) g]
  have e : (t.val - 1) % 4 + 1 = (3 : Fin 4).val := by show _ = 3; omega
  rw [e, ← infBelow_succ (fD m c b g) 3]
  show Ideal.sqrt (max (infBelow (fD m c b g) 4) zero) * hundred = _
  rw [infBelow_four]
  unfold lossGt
  rw [show (Finset.univ.inf (fD m c b g)) = colMin (X m c) (Y m c) (M m c) b g from rfl,
    max_eq_left (zero_le_colMin (X m c) (Y m c) (M m c) b g)]

end Cert.KernelIdeal.Points

end
-- ==== Proof.KernelResult.lean ====
/-
  The kernel's three results, as whole arrays: every entry is the specification's loss at its index.  The per-point
  blocks tile the two predicted-point results, the last tile of each batch writes that batch's row of the
  ground-truth result, and the host reshapes drop the unit axis.
-/
import proofs.«114563_j5085241278567_2_alg».proof.Proof.KernelIO
import proofs.«114563_j5085241278567_2_alg».proof.Proof.PointValue
import proofs.«114563_j5085241278567_2_alg».proof.Proof.ChamferSpec

noncomputable section

open Idealize.ShloMosaic Idealize.ShloMosaic.TcCoe Idealize.SL.Sem

namespace Cert.KernelIdeal.Result

open Cert.KernelIdeal Cert.KernelIdeal.Gen Cert.KernelIdeal.IO Cert.KernelIdeal.Points Cert.Chamfer Idealize.ShloMosaic.ValueIdx

variable (m : (ℓ : Loc nD τ sig) → Buf (Elt Ideal) ℓ) (c : Dev nD)

/-- The confidence-weighted loss. -/
theorem value5 : Cert.KernelIdeal.IO.R5 (F := Ideal) m c
    = fun j => Cert.Chamfer.lossConf (m ((c.tc : Thread nD τ).loc main_arg1)) (m ((c.tc : Thread nD τ).loc main_arg0)) (m ((c.tc : Thread nD τ).loc main_arg2)) (m ((c.tc : Thread nD τ).loc main_arg3)) (j 0) (j 1) := by
  funext j
  obtain ⟨b, q, rfl⟩ : ∃ (b : Fin 2) (q : Fin 8192), j = ix2 b q := ⟨j 0, j 1, eq_ix2 j⟩
  rw [R5_apply, arr4_of_tiles m c (fun k => lossConf (X m c) (Y m c) (M m c) (C m c) (k 0) (k 2))
    (fun t b i hb hi p => by rw [after0_4]; exact conf_block m c t b i hb hi p)]

/-- The masked predicted-to-ground-truth loss. -/
theorem value6 : Cert.KernelIdeal.IO.R6 (F := Ideal) m c
    = fun j => Cert.Chamfer.lossPred (m ((c.tc : Thread nD τ).loc main_arg1)) (m ((c.tc : Thread nD τ).loc main_arg0)) (m ((c.tc : Thread nD τ).loc main_arg2)) (j 0) (j 1) := by
  funext j
  obtain ⟨b, q, rfl⟩ : ∃ (b : Fin 2) (q : Fin 8192), j = ix2 b q := ⟨j 0, j 1, eq_ix2 j⟩
  rw [R6_apply, arr5_of_tiles m c (fun k => lossPred (X m c) (Y m c) (M m c) (k 0) (k 2))
    (fun t b i hb hi p => by rw [after0_5]; exact pred_block m c t b i hb hi p)]

/-- The ground-truth-to-predicted loss. -/
theorem value7 : Cert.KernelIdeal.IO.R7 (F := Ideal) m c
    = fun j => Cert.Chamfer.lossGt (m ((c.tc : Thread nD τ).loc main_arg1)) (m ((c.tc : Thread nD τ).loc main_arg0)) (m ((c.tc : Thread nD τ).loc main_arg2)) (j 0) (j 1) := by
  funext j
  obtain ⟨b, q, rfl⟩ : ∃ (b : Fin 2) (q : Fin 8192), j = ix2 b q := ⟨j 0, j 1, eq_ix2 j⟩
  rw [R7_apply, arr6_of_rows m c (fun k => lossGt (X m c) (Y m c) (M m c) (k 0) (k 2))
    (fun t b h3 hb g => by rw [after0_6]; exact gt_block m c t b h3 hb g)]

end Cert.KernelIdeal.Result

end
-- ==== Proof.lean ====
/-
  The chamfer losses of the kernel against the reference.

  Both programs take ground-truth points, predicted points, a mask and a confidence, and return three arrays: the
  confidence-weighted loss, the masked predicted-to-ground-truth loss and the ground-truth-to-predicted loss.  Each
  side meets the one specification (`Cert.Chamfer`) index by index: the reference forms every clamped squared
  distance and takes the two minima over whole axes; the kernel takes the same minima piecewise, over the
  ground-truth points in eight runs of 1024 and over the predicted points accumulated across the four tiles of 2048
  of a batch.  An infimum does not depend on how its index set is cut, so the two agree on the extended reals with
  no appeal to finiteness.  The arguments end unchanged on both sides, and the idealization rewrote no operation.
-/
import proofs.«114563_j5085241278567_2_alg».proof.Defs
import proofs.«114563_j5085241278567_2_alg».proof.Proof.Gen.Kernel
import proofs.«114563_j5085241278567_2_alg».proof.Proof.Gen.Kernel.Frame
import proofs.«114563_j5085241278567_2_alg».proof.Proof.Gen.KernelIdeal
import proofs.«114563_j5085241278567_2_alg».proof.Proof.Gen.KernelIdeal.Frame
import proofs.«114563_j5085241278567_2_alg».proof.Proof.Gen.ReferenceIdeal
import proofs.«114563_j5085241278567_2_alg».proof.Proof.Gen.ReferenceIdeal.Run
import proofs.«114563_j5085241278567_2_alg».proof.Proof.Gen.ReferenceIdeal.Read
import proofs.«114563_j5085241278567_2_alg».proof.Proof.Gen.Pre_finite_inputs
import proofs.«114563_j5085241278567_2_alg».proof.Proof.RefValue
import proofs.«114563_j5085241278567_2_alg».proof.Proof.KernelIO
import proofs.«114563_j5085241278567_2_alg».proof.Proof.KernelResult
import Idealize.ShloMosaic.Adequacy
import Idealize.ShloMosaic.Init

noncomputable section

namespace Cert.Proof

open Idealize.ShloMosaic Idealize.SL.Sem

/-- The kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Reading the kernel over the extended reals rewrote no operation. -/
theorem preserves : Cert.preserves_Kernel_KernelIdeal := trivial

/-- From arguments that agree, the two programs end with the same three arrays: each result of either side is the
    specification's loss of the arguments, index by index. -/
theorem algebraic : Cert.algebraic_KernelIdeal_ReferenceIdeal := by
  intro m ρ m' ρ' _ hagree
  refine ⟨fun c => Cert.KernelIdeal.IO.R5 (F := Ideal) m c, fun c => Cert.KernelIdeal.IO.R6 (F := Ideal) m c,
    fun c => Cert.KernelIdeal.IO.R7 (F := Ideal) m c, Cert.KernelIdeal.IO.run (F := Ideal) m ρ, ?_⟩
  refine (θ_run Cert.ReferenceIdeal.defs _ _).mono (fun _ h c => ?_) (Cert.ReferenceIdeal.Value.run (F := Ideal) m' ρ')
  obtain ⟨h31, h32, h25, hargs⟩ := h c
  obtain ⟨a0, a1, a2, a3⟩ := hagree c
  refine ⟨h31.trans ?_, h32.trans ?_, h25.trans ?_, hargs⟩
  · rw [Cert.ReferenceIdeal.Read.val_main_v31_eq]
    funext i
    rw [Cert.ReferenceIdeal.RefValue.ref_conf, a0, a1, a2, a3]
    exact (congrFun (Cert.KernelIdeal.Result.value5 m c) i).symm
  · rw [Cert.ReferenceIdeal.Read.val_main_v32_eq]
    funext i
    rw [Cert.ReferenceIdeal.RefValue.ref_pred, a0, a1, a2]
    exact (congrFun (Cert.KernelIdeal.Result.value6 m c) i).symm
  · rw [Cert.ReferenceIdeal.Read.val_main_v25_eq]
    funext i
    rw [Cert.ReferenceIdeal.RefValue.ref_gt, a0, a1, a2]
    exact (congrFun (Cert.KernelIdeal.Result.value7 m c) i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
